-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x2 : Shape := ⟨2, ![8192, 2]⟩
abbrev S8x2048x2048 : Shape := ⟨3, ![8, 2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn_part1 {F : FTy → Type} [FloatOps F] (main_arg5 : FVec F S8x2048x2048 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S8x2048x2048 .f32 := Host.absf main_arg5
  let main_cst_6 : FVec F S_ .f32 := constant S_ .f32 0x7F800000#32
  let main_v20 : FVec F S8x2048x2048 .f32 := broadcastInDim S8x2048x2048 ![] bcast_S_S8x2048x2048 main_cst_6
  let main_v21 : IVec S8x2048x2048 1 := cmpf .olt main_v19 main_v20
  let main_c_7 : IVec S_ 1 := constantI S_ 1 1#1
  let main_v22 : IVec S_ 1 := (fun x v => Host.reduce IntOp.andi x v reducesTo_S8x2048x2048_S_d0_1_2 h_S_) main_v21 main_c_7
  let main_v23 : IVec S_ 1 := andi main_v18 main_v22
  main_v23

def fn {F : FTy → Type} [FloatOps F] (main_arg0 : FVec F S8192x2048 .f32) (main_arg1 : FVec F S8192x2 .f32) (main_arg2 : IVec S8192x2 32) (main_arg3 : FVec F S8x2048x2048 .f32) (main_arg4 : FVec F S8x2048x2048 .f32) (main_arg5 : FVec F S8x2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x2048x2048 .f32 := Host.absf main_arg3
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x2048 .f32 := Host.absf main_arg4
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg5 main_v13 main_v16
-- ==== Kernel.lean ====
abbrev S8192x2048 : Shape := ⟨2, ![8192, 2048]⟩
abbrev S8192x2 : Shape := ⟨2, ![8192, 2]⟩
abbrev S8x2048x2048 : Shape := ⟨3, ![8, 2048, 2048]⟩
abbrev S16384 : Shape := ⟨1, ![16384]⟩
abbrev S_ : Shape := ⟨0, ![]⟩
abbrev S8 : Shape := ⟨1, ![8]⟩
abbrev S16384x1 : Shape := ⟨2, ![16384, 1]⟩
abbrev S1 : Shape := ⟨1, ![1]⟩
abbrev S7 : Shape := ⟨1, ![7]⟩
abbrev S8x2560x2048 : Shape := ⟨3, ![8, 2560, 2048]⟩
abbrev S16384x2048 : Shape := ⟨2, ![16384, 2048]⟩
abbrev S16384x2 : Shape := ⟨2, ![16384, 2]⟩
abbrev S1x256x2048 : Shape := ⟨3, ![1, 256, 2048]⟩
abbrev S1x2048x2048 : Shape := ⟨3, ![1, 2048, 2048]⟩
abbrev S256x2048 : Shape := ⟨2, ![256, 2048]⟩
abbrev S2048x2048 : Shape := ⟨2, ![2048, 2048]⟩

abbrev nBuf : Space → Nat
  | .hbm => 150
  | .vmem => 7
  | .smem => 0
  | _ => 0

abbrev hbmTy0_0 (i : Nat) : BufTy := match i % 128 with
  | 0 => ⟨S8192x2048, .f32⟩
  | 1 => ⟨S8192x2, .f32⟩
  | 2 => ⟨S8192x2, .i32⟩
  | 3 => ⟨S8x2048x2048, .f32⟩
  | 4 => ⟨S8x2048x2048, .f32⟩
  | 5 => ⟨S8x2048x2048, .f32⟩
  | 6 => ⟨S16384, .i32⟩
  | 7 => ⟨S16384, .f32⟩
  | 8 => ⟨S_, .i32⟩
  | 9 => ⟨S16384, .i32⟩
  | 10 => ⟨S_, .i32⟩
  | 11 => ⟨S8, .i32⟩
  | 12 => ⟨S16384x1, .i32⟩
  | 13 => ⟨S8, .i32⟩
  | 14 => ⟨S16384, .i32⟩
  | 15 => ⟨S16384, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S16384, .i32⟩
  | 26 => ⟨S_, .i32⟩
  | 27 => ⟨S1, .i32⟩
  | 28 => ⟨S_, .i32⟩
  | 29 => ⟨S_, .i32⟩
  | 30 => ⟨S8, .i32⟩
  | 31 => ⟨S7, .i32⟩
  | 32 => ⟨S8, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S_, .i32⟩
  | 49 => ⟨S16384, .i32⟩
  | 50 => ⟨S16384, .i32⟩
  | 51 => ⟨S_, .i32⟩
  | 52 => ⟨S_, .i32⟩
  | 53 => ⟨S16384, .i32⟩
  | 54 => ⟨S16384, .i32⟩
  | 55 => ⟨S16384, .i32⟩
  | 56 => ⟨S_, .i32⟩
  | 57 => ⟨S16384, .i32⟩
  | 58 => ⟨S16384, .i1⟩
  | 59 => ⟨S16384, .i32⟩
  | 60 => ⟨S16384, .i32⟩
  | 61 => ⟨S_, .i32⟩
  | 62 => ⟨S16384, .i32⟩
  | 63 => ⟨S16384, .i1⟩
  | 64 => ⟨S16384, .i1⟩
  | 65 => ⟨S_, .i32⟩
  | 66 => ⟨S16384, .i32⟩
  | 67 => ⟨S16384, .i32⟩
  | 68 => ⟨S16384, .i32⟩
  | 69 => ⟨S_, .f32⟩
  | 70 => ⟨S8x2560x2048, .f32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x2048, .f32⟩
  | 80 => ⟨S16384x1, .i1⟩
  | 81 => ⟨S16384x1, .f32⟩
  | 82 => ⟨S16384x2048, .f32⟩
  | 83 => ⟨S16384x2048, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S16384x1, .i32⟩
  | 100 => ⟨S16384x2, .i32⟩
  | 101 => ⟨S8x2560x2048, .f32⟩
  | 102 => ⟨S8x2560x2048, .bf16⟩
  | 103 => ⟨S8x2048x2048, .bf16⟩
  | 104 => ⟨S8x2048x2048, .bf16⟩
  | 105 => ⟨S8x2048x2048, .bf16⟩
  | 106 => ⟨S8x2560x2048, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S16384x1, .i32⟩
  | 123 => ⟨S16384x2, .i32⟩
  | 124 => ⟨S16384x2048, .f32⟩
  | 125 => ⟨S_, .i32⟩
  | 126 => ⟨S16384, .i32⟩
  | 127 => ⟨S16384, .i1⟩
  | _ => ⟨S8192x2048, .f32⟩

abbrev hbmTy0_1 (i : Nat) : BufTy := match i % 128 with
  | 0 => ⟨S_, .i32⟩
  | 1 => ⟨S16384, .i32⟩
  | 2 => ⟨S16384, .i32⟩
  | 3 => ⟨S16384, .i32⟩
  | 4 => ⟨S16384x1, .i32⟩
  | 5 => ⟨S16384, .f32⟩
  | 6 => ⟨S16384, .f32⟩
  | 7 => ⟨S16384, .f32⟩
  | 8 => ⟨S16384x1, .f32⟩
  | 9 => ⟨S16384x2048, .f32⟩
  | 10 => ⟨S16384x2048, .f32⟩
  | 11 => ⟨S_, .f32⟩
  | 12 => ⟨S8192x2048, .f32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S1x256x2048, .bf16⟩
  | .local _ .vmem, ⟨1, _⟩ => ⟨S1x256x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1x2048x2048, .bf16⟩
  | .local _ .vmem, ⟨5, _⟩ => ⟨S1x256x2048, .f32⟩
  | .local _ .vmem, ⟨6, _⟩ => ⟨S1x256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1_0 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_call1_call0_c : Ref sig .tc := ⟨.hbm, 28, rfl⟩
abbrev main_call1_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_call2_v0 : Ref sig .tc := ⟨.hbm, 48, rfl⟩
abbrev main_call2_v1 : Ref sig .tc := ⟨.hbm, 49, rfl⟩
abbrev main_v29 : Ref sig .tc := ⟨.hbm, 50, rfl⟩
abbrev main_c_8 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v30 : Ref sig .tc := ⟨.hbm, 68, rfl⟩
abbrev main_cst : Ref sig .tc := ⟨.hbm, 69, rfl⟩
abbrev main_v31 : Ref sig .tc := ⟨.hbm, 70, rfl⟩
abbrev main_c_9 : Ref sig .tc := ⟨.hbm, 71, rfl⟩
abbrev main_v32 : Ref sig .tc := ⟨.hbm, 72, rfl⟩
abbrev main_v33 : Ref sig .tc := ⟨.hbm, 73, rfl⟩
abbrev main_c_10 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_11 : Ref sig .tc := ⟨.hbm, 84, rfl⟩
abbrev main_v43 : Ref sig .tc := ⟨.hbm, 85, rfl⟩
abbrev main_v44 : Ref sig .tc := ⟨.hbm, 86, rfl⟩
abbrev main_c_12 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_13 : Ref sig .tc := ⟨.hbm, 91, rfl⟩
abbrev main_v48 : Ref sig .tc := ⟨.hbm, 92, rfl⟩
abbrev main_v49 : Ref sig .tc := ⟨.hbm, 93, rfl⟩
abbrev main_c_14 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_15 : Ref sig .tc := ⟨.hbm, 107, rfl⟩
abbrev main_v62 : Ref sig .tc := ⟨.hbm, 108, rfl⟩
abbrev main_v63 : Ref sig .tc := ⟨.hbm, 109, rfl⟩
abbrev main_c_16 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_17 : Ref sig .tc := ⟨.hbm, 114, rfl⟩
abbrev main_v67 : Ref sig .tc := ⟨.hbm, 115, rfl⟩
abbrev main_v68 : Ref sig .tc := ⟨.hbm, 116, rfl⟩
abbrev main_c_18 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_c_19 : Ref sig .tc := ⟨.hbm, 125, rfl⟩
abbrev main_v76 : Ref sig .tc := ⟨.hbm, 126, rfl⟩
abbrev main_v77 : Ref sig .tc := ⟨.hbm, 127, rfl⟩
abbrev main_c_20 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_21 : Ref sig .tc := ⟨.hbm, 139, rfl⟩
abbrev main_v88 : Ref sig .tc := ⟨.hbm, 140, rfl⟩
abbrev main_c_22 : Ref sig .tc := ⟨.hbm, 141, rfl⟩
abbrev main_v89 : Ref sig .tc := ⟨.hbm, 142, rfl⟩
abbrev main_v90 : Ref sig .tc := ⟨.hbm, 143, rfl⟩
abbrev main_c_23 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8192x2_S16384 : S8192x2.ShapeCasts S16384
  bcast_S_S16384 : S_.BroadcastsInDim S16384 (![] : Fin 0 → Fin S16384.rank)
  bcast_S_S8 : S_.BroadcastsInDim S8 (![] : Fin 0 → Fin S8.rank)
  bcast_S16384_S16384x1_0 : S16384.BroadcastsInDim S16384x1 (![0] : Fin 1 → Fin S16384x1.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x2560x2048 : S_.BroadcastsInDim S8x2560x2048 (![] : Fin 0 → Fin S8x2560x2048.rank)
  bcast_S16384x1_S16384x2048_0_1 : S16384x1.BroadcastsInDim S16384x2048 (![0, 1] : Fin 2 → Fin S16384x2048.rank)
  concatenates_S16384x1_S16384x1_S16384x2_d1 : Shape.Concatenates [S16384x1, S16384x1] S16384x2 1
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S256x2048_S1x256x2048 : S256x2048.ShapeCasts S1x256x2048
  bcast_S_S8192x2048 : S_.BroadcastsInDim S8192x2048 (![] : Fin 0 → Fin S8192x2048.rank)
  scatter_S8_S16384x1_S16384_n_0_0_1_wf : ScatterDims.WF S8 S16384x1 S16384 [] [0] [0] 1
  gather_S16384_S16384x1_S16384_n_0_n_n_0_1_1_wf : GatherDims.WF S16384 S16384x1 S16384 [] [0] [] [0] [] 1 ![1]
  gather_S8_S16384x1_S16384_n_0_n_n_0_1_1_wf : GatherDims.WF S8 S16384x1 S16384 [] [0] [] [0] [] 1 ![1]
  gather_S8192x2048_S16384x1_S16384x2048_1_0_n_n_0_1_12048_wf : GatherDims.WF S8192x2048 S16384x1 S16384x2048 [1] [0] [] [0] [] 1 ![1, 2048]
  scatter_S8x2560x2048_S16384x2_S16384x2048_1_01_01_1_wf : ScatterDims.WF S8x2560x2048 S16384x2 S16384x2048 [1] [0, 1] [0, 1] 1
  dot_S256x2048_S2048x2048_S256x2048_1_0_0_1_n_n_wf : DotDims.WF S256x2048 S2048x2048 S256x2048 [1] [0] [0] [1] [] []
  gather_S8x2560x2048_S16384x2_S16384x2048_1_01_n_n_01_1_112048_wf : GatherDims.WF S8x2560x2048 S16384x2 S16384x2048 [1] [0, 1] [] [0, 1] [] 1 ![1, 1, 2048]
  scatter_S8192x2048_S16384x1_S16384x2048_1_0_0_1_wf : ScatterDims.WF S8192x2048 S16384x1 S16384x2048 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x2560x2048.size a
  hwx0_0 : ∀ i : grid0.Coords, EltTy.bits .bf16 = 32 ∨ (Rect.block (s := S8x2560x2048) S1x256x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S8x2048x2048.size a
  hwx0_2 : ∀ i : grid0.Coords, EltTy.bits .bf16 = 32 ∨ (Rect.block (s := S8x2048x2048) S1x2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S8x2048x2048.size a
  hwx0_3 : ∀ i : grid0.Coords, EltTy.bits .bf16 = 32 ∨ (Rect.block (s := S8x2048x2048) S1x2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2560x2048.size a
  hwx0_4 : ∀ i : grid0.Coords, EltTy.bits .f32 = 32 ∨ (Rect.block (s := S8x2560x2048) S1x256x2048.size (cc0_transform_4 i) (hinb0_4 i)).WholeWords (EltTy.packing .f32)

variable [Facts₀]

def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf
def scatter_S8x2560x2048_S16384x2_S16384x2048_1_01_01_1 : ScatterDims S8x2560x2048 S16384x2 S16384x2048 where
  updateWindowDims := [1]
  insertedWindowDims := [0, 1]
  scatterDimsToOperandDims := [0, 1]
  indexVectorDim := 1
  wf := scatter_S8x2560x2048_S16384x2_S16384x2048_1_01_01_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def gather_S8x2560x2048_S16384x2_S16384x2048_1_01_n_n_01_1_112048 : GatherDims S8x2560x2048 S16384x2 S16384x2048 where
  offsetDims := [1]
  collapsedSliceDims := [0, 1]
  operandBatchingDims := []
  startIndicesBatchingDims := []
  startIndexMap := [0, 1]
  indexVectorDim := 1
  sliceSizes := ![1, 1, 2048]
  wf := gather_S8x2560x2048_S16384x2_S16384x2048_1_01_n_n_01_1_112048_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

abbrev win0_0 : Pipeline.Window sig grid0 :=
  Pipeline.Window.ofSpec (Memref.whole main_v57) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S1x2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x2 : Shape := ⟨2, ![8192, 2]⟩
abbrev S8x2048x2048 : Shape := ⟨3, ![8, 2048, 2048]⟩
abbrev S16384 : Shape := ⟨1, ![16384]⟩
abbrev S_ : Shape := ⟨0, ![]⟩
abbrev S8 : Shape := ⟨1, ![8]⟩
abbrev S16384x1 : Shape := ⟨2, ![16384, 1]⟩
abbrev S1 : Shape := ⟨1, ![1]⟩
abbrev S7 : Shape := ⟨1, ![7]⟩
abbrev S8x2560x2048 : Shape := ⟨3, ![8, 2560, 2048]⟩
abbrev S16384x2048 : Shape := ⟨2, ![16384, 2048]⟩
abbrev S16384x2 : Shape := ⟨2, ![16384, 2]⟩

abbrev nBuf : Space → Nat
  | .hbm => 158
  | .vmem => 0
  | .smem => 0
  | _ => 0

abbrev hbmTy0_0 (i : Nat) : BufTy := match i % 128 with
  | 0 => ⟨S8192x2048, .f32⟩
  | 1 => ⟨S8192x2, .f32⟩
  | 2 => ⟨S8192x2, .i32⟩
  | 3 => ⟨S8x2048x2048, .f32⟩
  | 4 => ⟨S8x2048x2048, .f32⟩
  | 5 => ⟨S8x2048x2048, .f32⟩
  | 6 => ⟨S16384, .i32⟩
  | 7 => ⟨S16384, .f32⟩
  | 8 => ⟨S_, .i32⟩
  | 9 => ⟨S16384, .i32⟩
  | 10 => ⟨S_, .i32⟩
  | 11 => ⟨S8, .i32⟩
  | 12 => ⟨S16384x1, .i32⟩
  | 13 => ⟨S8, .i32⟩
  | 14 => ⟨S16384, .i32⟩
  | 15 => ⟨S16384, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S16384, .i32⟩
  | 26 => ⟨S_, .i32⟩
  | 27 => ⟨S1, .i32⟩
  | 28 => ⟨S_, .i32⟩
  | 29 => ⟨S_, .i32⟩
  | 30 => ⟨S8, .i32⟩
  | 31 => ⟨S7, .i32⟩
  | 32 => ⟨S8, .i32⟩
  | 33 => ⟨S16384, .i32⟩
  | 34 => ⟨S_, .i32⟩
  | 35 => ⟨S16384, .i32⟩
  | 36 => ⟨S16384, .i1⟩
  | 37 => ⟨S_, .i32⟩
  | 38 => ⟨S16384, .i32⟩
  | 39 => ⟨S16384, .i32⟩
  | 40 => ⟨S16384, .i32⟩
  | 41 => ⟨S16384x1, .i32⟩
  | 42 => ⟨S16384, .i32⟩
  | 43 => ⟨S16384, .i32⟩
  | 44 => ⟨S_, .i32⟩
  | 45 => ⟨S16384, .i32⟩
  | 46 => ⟨S16384, .i1⟩
  | 47 => ⟨S_, .i32⟩
  | 48 => ⟨S_, .i32⟩
  | 49 => ⟨S16384, .i32⟩
  | 50 => ⟨S16384, .i32⟩
  | 51 => ⟨S_, .i32⟩
  | 52 => ⟨S_, .i32⟩
  | 53 => ⟨S16384, .i32⟩
  | 54 => ⟨S16384, .i32⟩
  | 55 => ⟨S16384, .i32⟩
  | 56 => ⟨S_, .i32⟩
  | 57 => ⟨S16384, .i32⟩
  | 58 => ⟨S16384, .i1⟩
  | 59 => ⟨S16384, .i32⟩
  | 60 => ⟨S16384, .i32⟩
  | 61 => ⟨S_, .i32⟩
  | 62 => ⟨S16384, .i32⟩
  | 63 => ⟨S16384, .i1⟩
  | 64 => ⟨S16384, .i1⟩
  | 65 => ⟨S_, .i32⟩
  | 66 => ⟨S16384, .i32⟩
  | 67 => ⟨S16384, .i32⟩
  | 68 => ⟨S16384, .i32⟩
  | 69 => ⟨S_, .f32⟩
  | 70 => ⟨S8x2560x2048, .f32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x2048, .f32⟩
  | 80 => ⟨S16384x1, .i1⟩
  | 81 => ⟨S16384x1, .f32⟩
  | 82 => ⟨S16384x2048, .f32⟩
  | 83 => ⟨S16384x2048, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S16384x1, .i32⟩
  | 100 => ⟨S16384x2, .i32⟩
  | 101 => ⟨S8x2560x2048, .f32⟩
  | 102 => ⟨S8x2560x2048, .f32⟩
  | 103 => ⟨S8x2560x2048, .f32⟩
  | 104 => ⟨S8x2560x2048, .f32⟩
  | 105 => ⟨S_, .f32⟩
  | 106 => ⟨S8x2560x2048, .f32⟩
  | 107 => ⟨S8x2560x2048, .f32⟩
  | 108 => ⟨S_, .f32⟩
  | 109 => ⟨S8x2560x2048, .f32⟩
  | 110 => ⟨S8x2560x2048, .f32⟩
  | 111 => ⟨S8x2560x2048, .f32⟩
  | 112 => ⟨S8x2560x2048, .f32⟩
  | 113 => ⟨S8x2560x2048, .f32⟩
  | 114 => ⟨S8x2560x2048, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S8192x2048, .f32⟩

abbrev hbmTy0_1 (i : Nat) : BufTy := match i % 128 with
  | 0 => ⟨S16384, .i32⟩
  | 1 => ⟨S16384x1, .i32⟩
  | 2 => ⟨S16384x1, .i32⟩
  | 3 => ⟨S16384x2, .i32⟩
  | 4 => ⟨S16384x2048, .f32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S16384, .f32⟩
  | 14 => ⟨S16384, .f32⟩
  | 15 => ⟨S16384, .f32⟩
  | 16 => ⟨S16384x1, .f32⟩
  | 17 => ⟨S16384x2048, .f32⟩
  | 18 => ⟨S16384x2048, .f32⟩
  | 19 => ⟨S_, .f32⟩
  | 20 => ⟨S8192x2048, .f32⟩
  | 21 => ⟨S_, .i32⟩
  | 22 => ⟨S16384, .i32⟩
  | 23 => ⟨S16384, .i1⟩
  | 24 => ⟨S_, .i32⟩
  | 25 => ⟨S16384, .i32⟩
  | 26 => ⟨S16384, .i32⟩
  | 27 => ⟨S16384, .i32⟩
  | 28 => ⟨S16384x1, .i32⟩
  | 29 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1_0 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_call1_call0_c : Ref sig .tc := ⟨.hbm, 28, rfl⟩
abbrev main_call1_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_call2_v0 : Ref sig .tc := ⟨.hbm, 48, rfl⟩
abbrev main_call2_v1 : Ref sig .tc := ⟨.hbm, 49, rfl⟩
abbrev main_v29 : Ref sig .tc := ⟨.hbm, 50, rfl⟩
abbrev main_c_8 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v30 : Ref sig .tc := ⟨.hbm, 68, rfl⟩
abbrev main_cst : Ref sig .tc := ⟨.hbm, 69, rfl⟩
abbrev main_v31 : Ref sig .tc := ⟨.hbm, 70, rfl⟩
abbrev main_c_9 : Ref sig .tc := ⟨.hbm, 71, rfl⟩
abbrev main_v32 : Ref sig .tc := ⟨.hbm, 72, rfl⟩
abbrev main_v33 : Ref sig .tc := ⟨.hbm, 73, rfl⟩
abbrev main_c_10 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_c_11 : Ref sig .tc := ⟨.hbm, 84, rfl⟩
abbrev main_v43 : Ref sig .tc := ⟨.hbm, 85, rfl⟩
abbrev main_v44 : Ref sig .tc := ⟨.hbm, 86, rfl⟩
abbrev main_c_12 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_13 : Ref sig .tc := ⟨.hbm, 91, rfl⟩
abbrev main_v48 : Ref sig .tc := ⟨.hbm, 92, rfl⟩
abbrev main_v49 : Ref sig .tc := ⟨.hbm, 93, rfl⟩
abbrev main_c_14 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_call4_v0 : Ref sig .tc := ⟨.hbm, 103, rfl⟩
abbrev main_call4_v1 : Ref sig .tc := ⟨.hbm, 104, rfl⟩
abbrev main_call4_cst : Ref sig .tc := ⟨.hbm, 105, rfl⟩
abbrev main_call4_v2 : Ref sig .tc := ⟨.hbm, 106, rfl⟩
abbrev main_call4_v3 : Ref sig .tc := ⟨.hbm, 107, rfl⟩
abbrev main_call4_cst_0 : Ref sig .tc := ⟨.hbm, 108, rfl⟩
abbrev main_call4_v4 : Ref sig .tc := ⟨.hbm, 109, rfl⟩
abbrev main_call4_v5 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_c_15 : Ref sig .tc := ⟨.hbm, 115, rfl⟩
abbrev main_v62 : Ref sig .tc := ⟨.hbm, 116, rfl⟩
abbrev main_v63 : Ref sig .tc := ⟨.hbm, 117, rfl⟩
abbrev main_c_16 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_c_17 : Ref sig .tc := ⟨.hbm, 122, rfl⟩
abbrev main_v67 : Ref sig .tc := ⟨.hbm, 123, rfl⟩
abbrev main_v68 : Ref sig .tc := ⟨.hbm, 124, rfl⟩
abbrev main_c_18 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_19 : Ref sig .tc := ⟨.hbm, 133, rfl⟩
abbrev main_v76 : Ref sig .tc := ⟨.hbm, 134, rfl⟩
abbrev main_v77 : Ref sig .tc := ⟨.hbm, 135, rfl⟩
abbrev main_c_20 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_cst_21 : Ref sig .tc := ⟨.hbm, 147, rfl⟩
abbrev main_v88 : Ref sig .tc := ⟨.hbm, 148, rfl⟩
abbrev main_c_22 : Ref sig .tc := ⟨.hbm, 149, rfl⟩
abbrev main_v89 : Ref sig .tc := ⟨.hbm, 150, rfl⟩
abbrev main_v90 : Ref sig .tc := ⟨.hbm, 151, rfl⟩
abbrev main_c_23 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩

abbrev nD : Nat := 1
abbrev τ : Topo := Topo.v7x

variable {F : FTy → Type} [FloatOps F]

class Facts₀ : Prop where
  shapeCasts_S8192x2_S16384 : S8192x2.ShapeCasts S16384
  bcast_S_S16384 : S_.BroadcastsInDim S16384 (![] : Fin 0 → Fin S16384.rank)
  bcast_S_S8 : S_.BroadcastsInDim S8 (![] : Fin 0 → Fin S8.rank)
  bcast_S16384_S16384x1_0 : S16384.BroadcastsInDim S16384x1 (![0] : Fin 1 → Fin S16384x1.rank)
  bcast_S_S1 : S_.BroadcastsInDim S1 (![] : Fin 0 → Fin S1.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S7_0 : S8.Slices ![0] S7
  concatenates_S1_S7_S8_d0 : Shape.Concatenates [S1, S7] S8 0
  bcast_S_S8x2560x2048 : S_.BroadcastsInDim S8x2560x2048 (![] : Fin 0 → Fin S8x2560x2048.rank)
  bcast_S16384x1_S16384x2048_0_1 : S16384x1.BroadcastsInDim S16384x2048 (![0, 1] : Fin 2 → Fin S16384x2048.rank)
  concatenates_S16384x1_S16384x1_S16384x2_d1 : Shape.Concatenates [S16384x1, S16384x1] S16384x2 1
  bcast_S_S8192x2048 : S_.BroadcastsInDim S8192x2048 (![] : Fin 0 → Fin S8192x2048.rank)
  scatter_S8_S16384x1_S16384_n_0_0_1_wf : ScatterDims.WF S8 S16384x1 S16384 [] [0] [0] 1
  gather_S16384_S16384x1_S16384_n_0_n_n_0_1_1_wf : GatherDims.WF S16384 S16384x1 S16384 [] [0] [] [0] [] 1 ![1]
  gather_S8_S16384x1_S16384_n_0_n_n_0_1_1_wf : GatherDims.WF S8 S16384x1 S16384 [] [0] [] [0] [] 1 ![1]
  gather_S8192x2048_S16384x1_S16384x2048_1_0_n_n_0_1_12048_wf : GatherDims.WF S8192x2048 S16384x1 S16384x2048 [1] [0] [] [0] [] 1 ![1, 2048]
  scatter_S8x2560x2048_S16384x2_S16384x2048_1_01_01_1_wf : ScatterDims.WF S8x2560x2048 S16384x2 S16384x2048 [1] [0, 1] [0, 1] 1
  dot_S8x2560x2048_S8x2048x2048_S8x2560x2048_2_1_1_2_0_0_wf : DotDims.WF S8x2560x2048 S8x2048x2048 S8x2560x2048 [2] [1] [1] [2] [0] [0]
  gather_S8x2560x2048_S16384x2_S16384x2048_1_01_n_n_01_1_112048_wf : GatherDims.WF S8x2560x2048 S16384x2 S16384x2048 [1] [0, 1] [] [0, 1] [] 1 ![1, 1, 2048]
  scatter_S8192x2048_S16384x1_S16384x2048_1_0_0_1_wf : ScatterDims.WF S8192x2048 S16384x1 S16384x2048 [1] [0] [0] 1

variable [Facts₀]

def scatter_S8_S16384x1_S16384_n_0_0_1 : ScatterDims S8 S16384x1 S16384 where
  updateWindowDims := []
  insertedWindowDims := [0]
  scatterDimsToOperandDims := [0]
  indexVectorDim := 1
  wf := scatter_S8_S16384x1_S16384_n_0_0_1_wf
def comparator_i32_i32_d0 : BitVec 32 × BitVec 32 → BitVec 32 × BitVec 32 → BitVec 1 :=
  fun l r =>
    let v2 := IntOp.cmpi .slt l.1 r.1
    v2
def gather_S16384_S16384x1_S16384_n_0_n_n_0_1_1 : GatherDims S16384 S16384x1 S16384 where
  offsetDims := []
  collapsedSliceDims := [0]
  operandBatchingDims := []
  startIndicesBatchingDims := []
  startIndexMap := [0]
  indexVectorDim := 1
  sliceSizes := ![1]
  wf := gather_S16384_S16384x1_S16384_n_0_n_n_0_1_1_wf
def gather_S8_S16384x1_S16384_n_0_n_n_0_1_1 : GatherDims S8 S16384x1 S16384 where
  offsetDims := []
  collapsedSliceDims := [0]
  operandBatchingDims := []
  startIndicesBatchingDims := []
  startIndexMap := [0]
  indexVectorDim := 1
  sliceSizes := ![1]
  wf := gather_S8_S16384x1_S16384_n_0_n_n_0_1_1_wf
def gather_S8192x2048_S16384x1_S16384x2048_1_0_n_n_0_1_12048 : GatherDims S8192x2048 S16384x1 S16384x2048 where
  offsetDims := [1]
  collapsedSliceDims := [0]
  operandBatchingDims := []
  startIndicesBatchingDims := []
  startIndexMap := [0]
  indexVectorDim := 1
  sliceSizes := ![1, 2048]
  wf := gather_S8192x2048_S16384x1_S16384x2048_1_0_n_n_0_1_12048_wf
def scatter_S8x2560x2048_S16384x2_S16384x2048_1_01_01_1 : ScatterDims S8x2560x2048 S16384x2 S16384x2048 where
  updateWindowDims := [1]
  insertedWindowDims := [0, 1]
  scatterDimsToOperandDims := [0, 1]
  indexVectorDim := 1
  wf := scatter_S8x2560x2048_S16384x2_S16384x2048_1_01_01_1_wf
def dot_S8x2560x2048_S8x2048x2048_S8x2560x2048_2_1_1_2_0_0 : DotDims S8x2560x2048 S8x2048x2048 S8x2560x2048 where
  lhsContracting := [2]
  rhsContracting := [1]
  lhsNonContracting := [1]
  rhsNonContracting := [2]
  lhsBatch := [0]
  rhsBatch := [0]
  wf := dot_S8x2560x2048_S8x2048x2048_S8x2560x2048_2_1_1_2_0_0_wf
def gather_S8x2560x2048_S16384x2_S16384x2048_1_01_n_n_01_1_112048 : GatherDims S8x2560x2048 S16384x2 S16384x2048 where
  offsetDims := [1]
  collapsedSliceDims := [0, 1]
  operandBatchingDims := []
  startIndicesBatchingDims := []
  startIndexMap := [0, 1]
  indexVectorDim := 1
  sliceSizes := ![1, 1, 2048]
  wf := gather_S8x2560x2048_S16384x2_S16384x2048_1_01_n_n_01_1_112048_wf
def scatter_S8192x2048_S16384x1_S16384x2048_1_0_0_1 : ScatterDims S8192x2048 S16384x1 S16384x2048 where
  updateWindowDims := [1]
  insertedWindowDims := [0]
  scatterDimsToOperandDims := [0]
  indexVectorDim := 1
  wf := scatter_S8192x2048_S16384x1_S16384x2048_1_0_0_1_wf

class Facts : Prop extends Facts₀ where

variable [Facts]
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.ExpertSpec.lean ====
/-
  The expert network of a routed mixture of experts, as one function on the extended reals.

  Eight experts; expert `e` holds three 2048 x 2048 weight matrices `w1 e`, `w3 e`, `w2 e` and is handed 2560 rows
  `x e r` of 2048 numbers each. For a row it forms two projections `p1 = x · w1` and `p3 = x · w3` (each entry a sum of
  2048 products), gates them entry by entry into `(p1 · σ(p1)) · p3` with `σ t = 1 / (1 + e^(-t))`, and multiplies the
  gated row by `w2`. Nothing here needs the numbers to be finite: both programs of the certificate compute these very
  sums and products in this order, so they agree on every extended real.
-/
import Idealize.ShloMosaic.PureOps.Ideal
import Idealize.ShloMosaic.Lib.ValueIdx

noncomputable section

open scoped BigOperators

namespace Cert.MoeExpert

open Idealize.ShloMosaic Idealize.ShloMosaic.ValueIdx

/-- The rows handed to the experts: expert, row, feature. -/
abbrev Rows : Shape := ⟨3, ![8, 2560, 2048]⟩
/-- One stack of weight matrices: expert, input unit, output unit. -/
abbrev Weights : Shape := ⟨3, ![8, 2048, 2048]⟩

/-- The gate: `(a · σ(a)) · b`. -/
def gate (a b : EReal) : EReal := (a * Ideal.logistic a) * b

/-- Row `r` of expert `e` against column `h` of that expert's matrix in `w`. -/
def proj (x : Rows.Idx → EReal) (w : Weights.Idx → EReal) (e : Fin 8) (r : Fin 2560) (h : Fin 2048) : EReal :=
  ∑ d : Fin 2048, x (ix3 e r d) * w (ix3 e d h)

/-- Entry `j` of expert `e`'s answer to its row `r`. -/
def expertAt (x : Rows.Idx → EReal) (w1 w3 w2 : Weights.Idx → EReal) (e : Fin 8) (r : Fin 2560) (j : Fin 2048) : EReal :=
  ∑ h : Fin 2048, gate (proj x w1 e r h) (proj x w3 e r h) * w2 (ix3 e h j)

/-- All the answers, as one array indexed like the rows. -/
def expert (x : Rows.Idx → EReal) (w1 w3 w2 : Weights.Idx → EReal) : Rows.Idx → EReal :=
  fun i => expertAt x w1 w3 w2 (i 0) (i 1) (i 2)

theorem expert_ix3 (x : Rows.Idx → EReal) (w1 w3 w2 : Weights.Idx → EReal) (e : Fin 8) (r : Fin 2560) (j : Fin 2048) :
    expert x w1 w3 w2 (ix3 e r j) = expertAt x w1 w3 w2 e r j := rfl

end Cert.MoeExpert

end
-- ==== Proof.BlockValue.lean ====
/-
  What the kernel body leaves in its output block, entry by entry.

  The body is handed a block of 256 rows (of one expert) and that expert's three weight matrices, each with a leading
  unit axis. It drops the unit axes, forms the two projections by matrix products into a zero accumulator, gates them
  entry by entry, multiplies by the third matrix, and puts the unit axis back. At the ideal values a change of float
  format is the identity, so entry `(0, r, j)` of the result is the sum over `h` of the gated pair of row `r`'s
  projections at `h` times the third matrix's entry `(h, j)`.
-/
import proofs.«126702_j1185410974369_1_alg».proof.Proof.Gen.KernelIdeal.Skeleton
import proofs.«126702_j1185410974369_1_alg».proof.Proof.LibDenseLayers
import proofs.«126702_j1185410974369_1_alg».proof.Proof.ExpertSpec
import Idealize.ShloMosaic.Lib.ValueLayout

noncomputable section

open scoped BigOperators

namespace Cert.KernelIdeal.BlockValue

open Cert.KernelIdeal Cert.KernelIdeal.Gen Idealize.ShloMosaic Idealize.ShloMosaic.ValueIdx Cert.MoeExpert

/-- One projection inside the body: the row block and a weight matrix, unit axes dropped, multiplied into zero. -/
theorem proj_apply (x0 : Vec Ideal S1x256x2048 .bf16) (w : Vec Ideal S1x2048x2048 .bf16) (r : Fin 256) (h : Fin 2048) :
    matmul dot_S256x2048_S2048x2048_S256x2048_1_0_0_1_n_n none
        (shapeCast S256x2048 x0 shapeCasts_S1x256x2048_S256x2048 : FVec Ideal S256x2048 .bf16)
        (shapeCast S2048x2048 w shapeCasts_S1x2048x2048_S2048x2048 : FVec Ideal S2048x2048 .bf16)
        (constant (F := Ideal) S256x2048 .f32 0x00000000#32) (ix2 r h)
      = ∑ d : Fin 2048, x0 (ix3 (0 : Fin 1) r d) * w (ix3 (0 : Fin 1) d h) := by
  refine (DenseLayers.matmul_rowcol_zero_apply (m := 256) (k := 2048) (n := 2048)
    dot_S256x2048_S2048x2048_S256x2048_1_0_0_1_n_n_wf none _ _ r h).trans ?_
  refine Finset.sum_congr rfl fun d _ => ?_
  exact congrArg₂ (· * ·) (shapeCast_1ab_ab_apply x0 _ r d) (shapeCast_1ab_ab_apply w _ d h)

/-- The body's stored value at `(0, r, j)`. -/
theorem pay_apply (x0 : Vec Ideal S1x256x2048 .bf16) (x1 x2 x3 : Vec Ideal S1x2048x2048 .bf16) (r : Fin 256) (j : Fin 2048) :
    k0_pay1 (F := Ideal) x0 x1 x2 x3 (ix3 (0 : Fin 1) r j)
      = ∑ h : Fin 2048, gate (∑ d : Fin 2048, x0 (ix3 (0 : Fin 1) r d) * x1 (ix3 (0 : Fin 1) d h))
            (∑ d : Fin 2048, x0 (ix3 (0 : Fin 1) r d) * x2 (ix3 (0 : Fin 1) d h)) * x3 (ix3 (0 : Fin 1) h j) := by
  unfold k0_pay1
  refine (shapeCast_ab_1ab_apply _ _ (0 : Fin 1) r j).trans ?_
  refine (DenseLayers.matmul_rowcol_zero_apply (m := 256) (k := 2048) (n := 2048)
    dot_S256x2048_S2048x2048_S256x2048_1_0_0_1_n_n_wf none _ _ r j).trans ?_
  refine Finset.sum_congr rfl fun h _ => ?_
  refine congrArg₂ (· * ·) ?_ (shapeCast_1ab_ab_apply x3 _ h j)
  exact congrArg₂ gate (proj_apply x0 x1 r h) (proj_apply x0 x2 r h)

end Cert.KernelIdeal.BlockValue

end
-- ==== Proof.KernelValue.lean ====
/-
  The array the kernel's region leaves, as one function of the arrays it reads.

  The grid has a point for every expert and every tile of 256 of that expert's 2560 rows. At a point the row window
  holds the tile, the three weight windows hold the expert's whole matrices, and the output window's block is the same
  tile of the output array. So what a point writes back is the point's tile of the expert network applied to the
  staged arrays; the tiles cover the output array, which therefore ends holding that function everywhere.
-/
import proofs.«126702_j1185410974369_1_alg».proof.Proof.Gen.KernelIdeal.Frame
import proofs.«126702_j1185410974369_1_alg».proof.Proof.BlockValue
import Idealize.ShloMosaic.Lib.Pipeline.Value

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx Cert.MoeExpert Cert.KernelIdeal.BlockValue
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-- The expert network applied to the four arrays the region stages, as it finds them. -/
abbrev G (c : Dev nD) : S8x2560x2048.Idx → Elt Ideal .f32 :=
  expert (V m c main_v57) (V m c main_v58) (V m c main_v59) (V m c main_v60)

/-! ## Where the windows sit at a point -/

/-- The windows' block indices over the grid: the row window and the output window move together (expert, tile, 0),
    each weight window sits at (expert, 0, 0). -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (2 : Fin 3) = 0 :=
  (by decide +kernel : ∀ t : Fin grid0.N, _)

theorem expert_lt : ∀ t : Fin cfg0.N, win0_4.index t (0 : Fin 3) < 8 :=
  (by decide +kernel : ∀ t : Fin grid0.N, _)

theorem tile_lt : ∀ t : Fin cfg0.N, win0_4.index t (1 : Fin 3) < 10 :=
  (by decide +kernel : ∀ t : Fin grid0.N, _)

/-- Every (expert, tile) is some point's. -/
theorem index_onto : ∀ (q0 : Fin 8) (q1 : Fin 10), ∃ t : Fin cfg0.N, win0_4.index t = ![q0.val, q1.val, 0] :=
  (by decide +kernel : ∀ (q0 : Fin 8) (q1 : Fin 10), ∃ t : Fin grid0.N, win0_4.index t = ![q0.val, q1.val, 0])

/-- The expert of point `t`. -/
def expertOf (t : Fin cfg0.N) : Fin 8 := ⟨win0_4.index t (0 : Fin 3), expert_lt t⟩
/-- Row `r` of point `t`'s tile, as a row of the expert's 2560. -/
def rowOf (t : Fin cfg0.N) (r : Fin 256) : Fin 2560 :=
  ⟨win0_4.index t (1 : Fin 3) * 256 + r.val, by have := tile_lt t; have := r.isLt; omega⟩

/-! ## The blocks, read in the arrays -/

theorem rows_block (c : Dev nD) (t : Fin cfg0.N) (r : Fin 256) (d : Fin 2048) :
    (iblk m c 0 t : Vec Ideal S1x256x2048 .bf16) (ix3 (0 : Fin 1) r d)
      = (V m c main_v57 : Rows.Idx → EReal) (ix3 (expertOf t) (rowOf t r) d) := by
  obtain ⟨e0, e1, e2, -⟩ := index_facts t
  unfold iblk
  rw [View.read_apply]
  show V m c main_v57 _ = V m c main_v57 _
  congr 1
  funext a
  apply Fin.ext
  match a with
  | ⟨0, _⟩ => show win0_0.index t (0 : Fin 3) * 1 + 1 * 0 = win0_4.index t (0 : Fin 3); omega
  | ⟨1, _⟩ => show win0_0.index t (1 : Fin 3) * 256 + 1 * r.val = win0_4.index t (1 : Fin 3) * 256 + r.val; omega
  | ⟨2, _⟩ => show win0_0.index t (2 : Fin 3) * 2048 + 1 * d.val = d.val; omega

theorem w1_block (c : Dev nD) (t : Fin cfg0.N) (d h : Fin 2048) :
    (iblk m c 1 t : Vec Ideal S1x2048x2048 .bf16) (ix3 (0 : Fin 1) d h)
      = (V m c main_v58 : Weights.Idx → EReal) (ix3 (expertOf t) d h) := by
  obtain ⟨-, -, -, e0, e1, e2, -⟩ := index_facts t
  unfold iblk
  rw [View.read_apply]
  show V m c main_v58 _ = V m c main_v58 _
  congr 1
  funext a
  apply Fin.ext
  match a with
  | ⟨0, _⟩ => show win0_1.index t (0 : Fin 3) * 1 + 1 * 0 = win0_4.index t (0 : Fin 3); omega
  | ⟨1, _⟩ => show win0_1.index t (1 : Fin 3) * 2048 + 1 * d.val = d.val; omega
  | ⟨2, _⟩ => show win0_1.index t (2 : Fin 3) * 2048 + 1 * h.val = h.val; omega

theorem w3_block (c : Dev nD) (t : Fin cfg0.N) (d h : Fin 2048) :
    (iblk m c 2 t : Vec Ideal S1x2048x2048 .bf16) (ix3 (0 : Fin 1) d h)
      = (V m c main_v59 : Weights.Idx → EReal) (ix3 (expertOf t) d h) := by
  obtain ⟨-, -, -, -, -, -, e0, e1, e2, -⟩ := index_facts t
  unfold iblk
  rw [View.read_apply]
  show V m c main_v59 _ = V m c main_v59 _
  congr 1
  funext a
  apply Fin.ext
  match a with
  | ⟨0, _⟩ => show win0_2.index t (0 : Fin 3) * 1 + 1 * 0 = win0_4.index t (0 : Fin 3); omega
  | ⟨1, _⟩ => show win0_2.index t (1 : Fin 3) * 2048 + 1 * d.val = d.val; omega
  | ⟨2, _⟩ => show win0_2.index t (2 : Fin 3) * 2048 + 1 * h.val = h.val; omega

theorem w2_block (c : Dev nD) (t : Fin cfg0.N) (d h : Fin 2048) :
    (iblk m c 3 t : Vec Ideal S1x2048x2048 .bf16) (ix3 (0 : Fin 1) d h)
      = (V m c main_v60 : Weights.Idx → EReal) (ix3 (expertOf t) d h) := by
  obtain ⟨-, -, -, -, -, -, -, -, -, e0, e1, e2, -⟩ := index_facts t
  unfold iblk
  rw [View.read_apply]
  show V m c main_v60 _ = V m c main_v60 _
  congr 1
  funext a
  apply Fin.ext
  match a with
  | ⟨0, _⟩ => show win0_3.index t (0 : Fin 3) * 1 + 1 * 0 = win0_4.index t (0 : Fin 3); omega
  | ⟨1, _⟩ => show win0_3.index t (1 : Fin 3) * 2048 + 1 * d.val = d.val; omega
  | ⟨2, _⟩ => show win0_3.index t (2 : Fin 3) * 2048 + 1 * h.val = h.val; omega

/-- Where entry `(0, r, j)` of the output block at point `t` sits in the output array. -/
theorem out_block_emb (t : Fin cfg0.N) (r : Fin 256) (j : Fin 2048) :
    (((cfg0.win 4).blk t).view.emb (ix3 (0 : Fin 1) r j) : S8x2560x2048.Idx) = ix3 (expertOf t) (rowOf t r) j := by
  obtain ⟨-, -, -, -, -, -, -, -, -, -, -, -, e2⟩ := index_facts t
  funext a
  apply Fin.ext
  match a with
  | ⟨0, _⟩ => show win0_4.index t (0 : Fin 3) * 1 + 1 * 0 = win0_4.index t (0 : Fin 3); omega
  | ⟨1, _⟩ => show win0_4.index t (1 : Fin 3) * 256 + 1 * r.val = win0_4.index t (1 : Fin 3) * 256 + r.val; omega
  | ⟨2, _⟩ => show win0_4.index t (2 : Fin 3) * 2048 + 1 * j.val = j.val; omega

/-- Two contents of a block with a leading unit axis agree when they agree at every `(0, r, j)`. -/
theorem block_ext (X Y : S1x256x2048.Idx → EReal)
    (h : ∀ (r : Fin 256) (j : Fin 2048), X (ix3 (0 : Fin 1) r j) = Y (ix3 (0 : Fin 1) r j)) : X = Y := by
  funext y
  obtain ⟨u, r, j, rfl⟩ : ∃ (u : Fin 1) (r : Fin 256) (j : Fin 2048), y = ix3 u r j := ⟨y 0, y 1, y 2, eq_ix3 y⟩
  obtain rfl : u = 0 := Subsingleton.elim _ _
  exact h r j

/-! ## What a point writes back, and the array after the run -/

/-- Point `t` writes back its tile of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero zero_offsets]
  simp only [View.ld_unit_zero (S := S1x256x2048) zero_offsets, View.ld_unit_zero (S := S1x2048x2048) zero_offsets]
  refine block_ext _ _ fun r j => ?_
  refine (pay_apply (iblk m c 0 t) (iblk m c 1 t) (iblk m c 2 t) (iblk m c 3 t) r j).trans ?_
  simp only [rows_block m c t, w1_block m c t, w3_block m c t, w2_block m c t]
  rw [View.read_apply, out_block_emb t r j]
  rfl

theorem mem_out_block (t : Fin cfg0.N) (i : S8x2560x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v61).slice (win0_4.rect t)).set ↔ _
  rw [View.set_slice_whole, Rect.mem_set_unit]
  exact Iff.rfl

/-- Every entry of the output array lies in some point's block. -/
theorem covered (i : S8x2560x2048.Idx) :
    ∃ t : Fin cfg0.N, (cfg0.win 4).flush t = true ∧ i ∈ ((cfg0.win 4).blk t).view.set := by
  have hi0 : (i 0).val < 8 := (i 0).isLt
  have hi1 : (i 1).val < 2560 := (i 1).isLt
  have hi2 : (i 2).val < 2048 := (i 2).isLt
  obtain ⟨t, ht⟩ := index_onto ⟨(i 0).val, hi0⟩ ⟨(i 1).val / 256, by omega⟩
  have q0 : win0_4.index t (0 : Fin 3) = (i 0).val := congrFun ht 0
  have q1 : win0_4.index t (1 : Fin 3) = (i 1).val / 256 := congrFun ht 1
  have q2 : win0_4.index t (2 : Fin 3) = 0 := congrFun ht 2
  refine ⟨t, flush0_4 t, ?_⟩
  rw [mem_out_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- The output array after the run is `G`. -/
theorem final (c : Dev nD) : (dats m 0 c).arrAt 4 cfg0.N = G m c :=
  (dats m 0 c).arrAt_eq_of_cover 4 (G m c) (fun t _ => flushed_eq m c t) covered

end Cert.KernelIdeal.KernelValue

end
-- ==== Proof.LibAfterAppend.lean ====
/-
  Running two stretches of host operations one after the other is running their concatenation: the contents after
  `l₁ ++ l₂` from `V` are the contents after `l₂` from the contents after `l₁` from `V`. For any topology, buffer
  signature and value family; no program imported.
-/
import Idealize.ShloMosaic.Lib.StableHlo.Run

namespace Cert.LibAfterAppend

open Idealize.ShloMosaic Idealize.ShloMosaic.StableHlo

/-- The fold of the operations' results over a concatenation splits at the seam. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.KernelKeeps.lean ====
/-
  The kernel program's host stretches: what each leaves alone.

  The routing writes none of the float arguments. The last stretch before the region writes none of the routing's
  results, and its three roundings of the weight stacks are the weight stacks themselves at the ideal values, where a
  change of float format is the identity. The stretch after the region does not write the expert counts.
-/
import proofs.«126702_j1185410974369_1_alg».proof.Proof.Gen.KernelIdeal.Launch
import Idealize.ShloMosaic.Lib.StableHlo.Run
import Idealize.ShloMosaic.PureOps.Ideal

noncomputable section

namespace Cert.KernelIdeal.KernelKeeps

open Cert.KernelIdeal Cert.KernelIdeal.Gen Idealize.ShloMosaic Idealize.ShloMosaic.TcCoe Idealize.SL.Sem
open Idealize.ShloMosaic.StableHlo

/-- The routing: every host operation before the last stretch, calls inlined, in order. -/
abbrev route : List (HloOp τ sig (Elt Ideal)) :=
  List.flatten [hostOps0, hostOps0_1, hostOps0_2, hostOps0_3, hostOps0_4, hostOps0_5, hostOps0_6, hostOps0_7]

set_option maxRecDepth 8192 in
/-- The routing reads the integer assignments and the routing weights; it writes no float argument. -/
theorem route_keeps (M : Valuation τ sig (Elt Ideal)) :
    after route M (Proc.devRef .tc main_arg0) = M (Proc.devRef .tc main_arg0)
    ∧ after route M (Proc.devRef .tc main_arg3) = M (Proc.devRef .tc main_arg3)
    ∧ after route M (Proc.devRef .tc main_arg4) = M (Proc.devRef .tc main_arg4)
    ∧ after route M (Proc.devRef .tc main_arg5) = M (Proc.devRef .tc main_arg5) := by
  simp only [route, hostOps0, hostOps0_1, hostOps0_2, hostOps0_3, hostOps0_4, hostOps0_5, hostOps0_6, hostOps0_7,
    List.flatten_cons, List.flatten_nil, List.append_nil, List.cons_append, List.nil_append]
  after_results_simp
  exact ⟨trivial, trivial, trivial, trivial⟩

set_option maxRecDepth 8192 in
/-- The last stretch before the region writes none of the routing's results. -/
theorem fill_keeps (P : Valuation τ sig (Elt Ideal)) :
    after hostOps0_8 P (Proc.devRef .tc main_v1) = P (Proc.devRef .tc main_v1)
    ∧ after hostOps0_8 P (Proc.devRef .tc main_v5) = P (Proc.devRef .tc main_v5)
    ∧ after hostOps0_8 P (Proc.devRef .tc main_v6) = P (Proc.devRef .tc main_v6)
    ∧ after hostOps0_8 P (Proc.devRef .tc main_v13) = P (Proc.devRef .tc main_v13)
    ∧ after hostOps0_8 P (Proc.devRef .tc main_v28) = P (Proc.devRef .tc main_v28)
    ∧ after hostOps0_8 P (Proc.devRef .tc main_v29) = P (Proc.devRef .tc main_v29)
    ∧ after hostOps0_8 P (Proc.devRef .tc main_v30) = P (Proc.devRef .tc main_v30) := by
  simp only [hostOps0_8]
  after_results_simp
  exact ⟨trivial, trivial, trivial, trivial, trivial, trivial, trivial⟩

set_option maxRecDepth 8192 in
/-- The rounded weight stacks the region stages are the weight stacks, at the ideal values. -/
theorem weights_staged (P : Valuation τ sig (Elt Ideal)) :
    (after hostOps0_8 P (Proc.devRef .tc main_v58) : S8x2048x2048.Idx → EReal) = P (Proc.devRef .tc main_arg3)
    ∧ (after hostOps0_8 P (Proc.devRef .tc main_v59) : S8x2048x2048.Idx → EReal) = P (Proc.devRef .tc main_arg5)
    ∧ (after hostOps0_8 P (Proc.devRef .tc main_v60) : S8x2048x2048.Idx → EReal) = P (Proc.devRef .tc main_arg4) := by
  simp only [hostOps0_8]
  after_results_simp
  exact ⟨rfl, rfl, rfl⟩

set_option maxRecDepth 8192 in
/-- The stretch after the region does not write the expert counts. -/
theorem tail_keeps (W : Valuation τ sig (Elt Ideal)) :
    after hostOps1 W (Proc.devRef .tc main_v5) = W (Proc.devRef .tc main_v5) := by
  simp only [hostOps1]
  after_results_simp

end Cert.KernelIdeal.KernelKeeps

end
-- ==== Proof.KernelHost.lean ====
/-
  The kernel program's host side, cut at its two seams.

  Before the region the program routes (it sorts the expert assignments, counts them, and computes for every sorted
  slot its expert, its offset inside the expert's bin, whether it fits the capacity, and its source token) and then, in
  its last stretch, gathers the tokens' rows, scatters them into the experts' bins and rounds the bins and the three
  weight stacks for the region. After the region it gathers the experts' answers back, weights them and scatters them
  onto the tokens. Here: the contents at the region's entry as the last stretch applied to the contents after the
  routing; and what the stretch after the region reads — the region's output array, which is the expert network of the
  staged arrays, and otherwise contents the region found at its entry.
-/
import proofs.«126702_j1185410974369_1_alg».proof.Proof.KernelValue
import proofs.«126702_j1185410974369_1_alg».proof.Proof.LibAfterAppend
import proofs.«126702_j1185410974369_1_alg».proof.Proof.KernelKeeps
import Idealize.ShloMosaic.Lib.StableHlo.Run

noncomputable section

namespace Cert.KernelIdeal.KernelHost

open Cert.KernelIdeal Cert.KernelIdeal.Gen Idealize.ShloMosaic Idealize.ShloMosaic.TcCoe Idealize.SL.Sem
open Idealize.ShloMosaic.StableHlo Cert.KernelIdeal.KernelValue Cert.KernelIdeal.KernelKeeps

variable (m : (ℓ : Loc nD τ sig) → Buf (Elt Ideal) ℓ)

/-- Core `c`'s contents after the routing. -/
abbrev routed (c : Dev nD) : Valuation τ sig (Elt Ideal) := after route (fun b => m (c, b))

/-- The contents at the region's entry: the last stretch applied to the contents after the routing. -/
theorem entry_eq (c : Dev nD) : V0 m c = after hostOps0_8 (routed m c) := by
  show after (List.flatten [hostOps0, hostOps0_1, hostOps0_2, hostOps0_3, hostOps0_4, hostOps0_5, hostOps0_6, hostOps0_7, hostOps0_8]) _ = _
  rw [show (List.flatten [hostOps0, hostOps0_1, hostOps0_2, hostOps0_3, hostOps0_4, hostOps0_5, hostOps0_6, hostOps0_7, hostOps0_8]
        : List (HloOp τ sig (Elt Ideal))) = route ++ hostOps0_8 from by
      simp only [route, List.flatten_cons, List.flatten_nil, List.append_nil, List.append_assoc],
    Cert.LibAfterAppend.after_append]

/-- What the stretch after the region starts from: the entry contents with the region's arrays as the run left them. -/
abbrev resumed (c : Dev nD) : Valuation τ sig (Elt Ideal) :=
  Pipeline.withArrays (cfgs 0).spec c (V0 m c) fun w => (dats m 0 c).arrAt w (cfgs 0).N

/-- A result of @main, as the frame run states it, is the stretch after the region applied to those contents. -/
theorem tail_eq (c : Dev nD) (b : Ref sig .tc) :
    Pipeline.afterTail₀ cfgs (dats m) 0 (V0 m) [hostOps1] c b = after hostOps1 (resumed m c) (Proc.devRef .tc b) := by
  unfold Pipeline.afterTail₀
  simp only [List.flatten_cons, List.flatten_nil, List.append_nil]

/-- The region's output array, as the stretch after the region finds it, is the expert network of the staged arrays. -/
theorem resumed_out (c : Dev nD) : resumed m c (Proc.devRef .tc main_v61) = G m c :=
  (Pipeline.withArrays_arr spec0 launch0.win.arr_inj c _ _ 4).trans (final m c)

/-- A buffer that is no array of the region is found as the region's entry left it. -/
theorem resumed_rest (c : Dev nD) (b : Ref sig .tc) (hb : ∀ w, Pipeline.arrRef spec0 w ≠ b) :
    resumed m c (Proc.devRef .tc b) = V0 m c (Proc.devRef .tc b) :=
  Pipeline.withArrays_of_ne _ c (V0 m c) _ b hb

end Cert.KernelIdeal.KernelHost

end
-- ==== Proof.RefRun.lean ====
/- The reference program's @main as three lists of its host operations, in program order: every call of a
   module-local function stands at its call site as the callee's operations over that call's buffers. Then the
   run over the lists: on every device, from any memory with zero counters, every weakly fair execution of @main
   terminates, and each buffer ends at the fold of the operations over the contents it was launched with. -/
import proofs.«126702_j1185410974369_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The operations of statements %0 … %30, in order, through the call of @floor_divide. The call of @argsort is
    its three operations over `main_call0`'s buffers, the call of @cumsum the three of @cumsum_0 over
    `main_call1_call0`'s, the call of @_where its three over `main_call2`'s, the call of @floor_divide its sixteen
    over `main_call3`'s followed by the select of @_where_1 that writes `main_v30`: sixty-three operations. -/
abbrev opsRoute : List (HloOp τ sig (Elt F)) :=
  ( StableHlo.reshape main_arg2 main_v0 rfl shapeCasts_S8192x2_S16384
  :: StableHlo.reshape main_arg1 main_v1 rfl shapeCasts_S8192x2_S16384
  :: StableHlo.nullary main_c (constantI S_ 32 1#32)
  :: StableHlo.unary main_c main_v2 (broadcastInDim S16384 ![] bcast_S_S16384 : (⟨S_, .i32⟩ : BufTy).Contents (Elt F) → (⟨S16384, .i32⟩ : BufTy).Contents (Elt F))
  :: StableHlo.nullary main_c_0 (constantI S_ 32 0#32)
  :: StableHlo.unary main_c_0 main_v3 (broadcastInDim S8 ![] bcast_S_S8 : (⟨S_, .i32⟩ : BufTy).Contents (Elt F) → (⟨S8, .i32⟩ : BufTy).Contents (Elt F))
  :: StableHlo.unary main_v0 main_v4 (broadcastInDim S16384x1 ![0] bcast_S16384_S16384x1_0 : (⟨S16384, .i32⟩ : BufTy).Contents (Elt F) → (⟨S16384x1, .i32⟩ : BufTy).Contents (Elt F))
  :: StableHlo.ternary main_v3 main_v4 main_v2 main_v5 ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F))
  :: StableHlo.TRef.nullary (.of main_call0_v0 : StableHlo.TRef sig ⟨S16384, .i32⟩) (iotaInDim S16384 32 0)
  :: StableHlo.TRef.binary (.of main_v0 : StableHlo.TRef sig ⟨S16384, .i32⟩) (.of main_call0_v0 : StableHlo.TRef sig ⟨S16384, .i32⟩) (.of main_call0_v1_0 : StableHlo.TRef sig ⟨S16384, .i32⟩) (fun x y => (Host.sort2 S16384 0 comparator_i32_i32_d0 x y).1)
  :: StableHlo.TRef.binary (.of main_v0 : StableHlo.TRef sig ⟨S16384, .i32⟩) (.of main_call0_v0 : StableHlo.TRef sig ⟨S16384, .i32⟩) (.of main_v6 : StableHlo.TRef sig ⟨S16384, .i32⟩) (fun x y => (Host.sort2 S16384 0 comparator_i32_i32_d0 x y).2)
  :: StableHlo.nullary main_c_1 (constantI S_ 32 0#32)
  :: StableHlo.unary main_c_1 main_v7 (broadcastInDim S16384 ![] bcast_S_S16384 : (⟨S_, .i32⟩ : BufTy).Contents (Elt F) → (⟨S16384, .i32⟩ : BufTy).Contents (Elt F))
  :: StableHlo.binary main_v6 main_v7 main_v8 (cmpi .slt : (⟨S16384, .i32⟩ : BufTy).Contents (Elt F) → (⟨S16384, .i32⟩ : BufTy).Contents (Elt F) → (⟨S16384, .i1⟩ : BufTy).Contents (Elt F))
  :: StableHlo.nullary main_c_2 (constantI S_ 32 16384#32)
  :: StableHlo.unary main_c_2 main_v9 (broadcastInDim S16384 ![] bcast_S_S16384 : (⟨S_, .i32⟩ : BufTy).Contents (Elt F) → (⟨S16384, .i32⟩ : BufTy).Contents (Elt F))
  :: StableHlo.binary main_v6 main_v9 main_v10 (addi : (⟨S16384, .i32⟩ : BufTy).Contents (Elt F) → (⟨S16384, .i32⟩ : BufTy).Contents (Elt F) → (⟨S16384, .i32⟩ : BufTy).Contents (Elt F))
  :: StableHlo.ternary main_v8 main_v10 main_v6 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v11 main_v12 (broadcastInDim S16384x1 ![0] bcast_S16384_S16384x1_0 : (⟨S16384, .i32⟩ : BufTy).Contents (Elt F) → (⟨S16384x1, .i32⟩ : BufTy).Contents (Elt F))
  :: StableHlo.binary main_v0 main_v12 main_v13 ((fun x i => Host.gather gather_S16384_S16384x1_S16384_n_0_n_n_0_1_1 x i) : (⟨S16384, .i32⟩ : BufTy).Contents (Elt F) → (⟨S16384x1, .i32⟩ : BufTy).Contents (Elt F) → (⟨S16384, .i32⟩ : BufTy).Contents (Elt F))
  :: StableHlo.nullary main_c_3 (constantI S_ 32 0#32)
  :: StableHlo.unary main_c_3 main_v14 (broadcastInDim S1 ![] bcast_S_S1 : (⟨S_, .i32⟩ : BufTy).Contents (Elt F) → (⟨S1, .i32⟩ : BufTy).Contents (Elt F))
  :: StableHlo.TRef.nullary (.of main_call1_call0_c : StableHlo.TRef sig ⟨S_, .i32⟩) (constantI S_ 32 0#32)
  :: StableHlo.TRef.unary (.of main_call1_call0_c : StableHlo.TRef sig ⟨S_, .i32⟩) (.of main_call1_call0_v0 : StableHlo.TRef sig ⟨S_, .i32⟩) (broadcastInDim S_ ![] bcast_S_S_)
  :: StableHlo.TRef.binary (.of main_v5 : StableHlo.TRef sig ⟨S8, .i32⟩) (.of main_call1_call0_v0 : StableHlo.TRef sig ⟨S_, .i32⟩) (.of main_v15 : StableHlo.TRef sig ⟨S8, .i32⟩) (fun x v => Host.reduceWindow IntOp.addi ![8] ![1] ![7] ![0] x v reduceWindows_S8_S8_w8s1p7_0 h_S_)
  :: StableHlo.unary main_v15 main_v16 ((extractStridedSlice S7 ![0] · slices_S8_S7_0) : (⟨S8, .i32⟩ : BufTy).Contents (Elt F) → (⟨S7, .i32⟩ : BufTy).Contents (Elt F))
  :: StableHlo.binary main_v14 main_v16 main_v17 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F))
  :: StableHlo.nullary main_v18 (iotaInDim S16384 32 0)
  :: StableHlo.nullary main_c_4 (constantI S_ 32 0#32)
  :: StableHlo.unary main_c_4 main_v19 (broadcastInDim S16384 ![] bcast_S_S16384 : (⟨S_, .i32⟩ : BufTy).Contents (Elt F) → (⟨S16384, .i32⟩ : BufTy).Contents (Elt F))
  :: StableHlo.binary main_v13 main_v19 main_v20 (cmpi .slt : (⟨S16384, .i32⟩ : BufTy).Contents (Elt F) → (⟨S16384, .i32⟩ : BufTy).Contents (Elt F) → (⟨S16384, .i1⟩ : BufTy).Contents (Elt F))
  :: StableHlo.nullary main_c_5 (constantI S_ 32 8#32)
  :: StableHlo.unary main_c_5 main_v21 (broadcastInDim S16384 ![] bcast_S_S16384 : (⟨S_, .i32⟩ : BufTy).Contents (Elt F) → (⟨S16384, .i32⟩ : BufTy).Contents (Elt F))
  :: StableHlo.binary main_v13 main_v21 main_v22 (addi : (⟨S16384, .i32⟩ : BufTy).Contents (Elt F) → (⟨S16384, .i32⟩ : BufTy).Contents (Elt F) → (⟨S16384, .i32⟩ : BufTy).Contents (Elt F))
  :: StableHlo.ternary main_v20 main_v22 main_v13 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v23 main_v24 (broadcastInDim S16384x1 ![0] bcast_S16384_S16384x1_0 : (⟨S16384, .i32⟩ : BufTy).Contents (Elt F) → (⟨S16384x1, .i32⟩ : BufTy).Contents (Elt F))
  :: StableHlo.binary main_v17 main_v24 main_v25 ((fun x i => Host.gather gather_S8_S16384x1_S16384_n_0_n_n_0_1_1 x i) : (⟨S8, .i32⟩ : BufTy).Contents (Elt F) → (⟨S16384x1, .i32⟩ : BufTy).Contents (Elt F) → (⟨S16384, .i32⟩ : BufTy).Contents (Elt F))
  :: StableHlo.binary main_v18 main_v25 main_v26 (subi : (⟨S16384, .i32⟩ : BufTy).Contents (Elt F) → (⟨S16384, .i32⟩ : BufTy).Contents (Elt F) → (⟨S16384, .i32⟩ : BufTy).Contents (Elt F))
  :: StableHlo.nullary main_c_6 (constantI S_ 32 2560#32)
  :: StableHlo.unary main_c_6 main_v27 (broadcastInDim S16384 ![] bcast_S_S16384 : (⟨S_, .i32⟩ : BufTy).Contents (Elt F) → (⟨S16384, .i32⟩ : BufTy).Contents (Elt F))
  :: StableHlo.binary main_v26 main_v27 main_v28 (cmpi .slt : (⟨S16384, .i32⟩ : BufTy).Contents (Elt F) → (⟨S16384, .i32⟩ : BufTy).Contents (Elt F) → (⟨S16384, .i1⟩ : BufTy).Contents (Elt F))
  :: StableHlo.nullary main_c_7 (constantI S_ 32 0#32)
  :: StableHlo.TRef.unary (.of main_c_7 : StableHlo.TRef sig ⟨S_, .i32⟩) (.of main_call2_v0 : StableHlo.TRef sig ⟨S_, .i32⟩) id
  :: StableHlo.TRef.unary (.of main_call2_v0 : StableHlo.TRef sig ⟨S_, .i32⟩) (.of main_call2_v1 : StableHlo.TRef sig ⟨S16384, .i32⟩) (broadcastInDim S16384 ![] bcast_S_S16384)
  :: StableHlo.TRef.ternary (.of main_v28 : StableHlo.TRef sig ⟨S16384, .i1⟩) (.of main_v26 : StableHlo.TRef sig ⟨S16384, .i32⟩) (.of main_call2_v1 : StableHlo.TRef sig ⟨S16384, .i32⟩) (.of main_v29 : StableHlo.TRef sig ⟨S16384, .i32⟩) select
  :: StableHlo.nullary main_c_8 (constantI S_ 32 2#32)
  :: StableHlo.TRef.unary (.of main_c_8 : StableHlo.TRef sig ⟨S_, .i32⟩) (.of main_call3_v0 : StableHlo.TRef sig ⟨S_, .i32⟩) id
  :: StableHlo.TRef.unary (.of main_call3_v0 : StableHlo.TRef sig ⟨S_, .i32⟩) (.of main_call3_v1 : StableHlo.TRef sig ⟨S16384, .i32⟩) (broadcastInDim S16384 ![] bcast_S_S16384)
  :: StableHlo.TRef.binary (.of main_v6 : StableHlo.TRef sig ⟨S16384, .i32⟩) (.of main_call3_v1 : StableHlo.TRef sig ⟨S16384, .i32⟩) (.of main_call3_v2 : StableHlo.TRef sig ⟨S16384, .i32⟩) Host.divsi
  :: StableHlo.TRef.unary (.of main_v6 : StableHlo.TRef sig ⟨S16384, .i32⟩) (.of main_call3_v3 : StableHlo.TRef sig ⟨S16384, .i32⟩) signi
  :: StableHlo.TRef.unary (.of main_call3_v0 : StableHlo.TRef sig ⟨S_, .i32⟩) (.of main_call3_v4 : StableHlo.TRef sig ⟨S_, .i32⟩) signi
  :: StableHlo.TRef.unary (.of main_call3_v4 : StableHlo.TRef sig ⟨S_, .i32⟩) (.of main_call3_v5 : StableHlo.TRef sig ⟨S16384, .i32⟩) (broadcastInDim S16384 ![] bcast_S_S16384)
  :: StableHlo.TRef.binary (.of main_call3_v3 : StableHlo.TRef sig ⟨S16384, .i32⟩) (.of main_call3_v5 : StableHlo.TRef sig ⟨S16384, .i32⟩) (.of main_call3_v6 : StableHlo.TRef sig ⟨S16384, .i1⟩) (cmpi .ne)
  :: StableHlo.TRef.unary (.of main_call3_v0 : StableHlo.TRef sig ⟨S_, .i32⟩) (.of main_call3_v7 : StableHlo.TRef sig ⟨S16384, .i32⟩) (broadcastInDim S16384 ![] bcast_S_S16384)
  :: StableHlo.TRef.binary (.of main_v6 : StableHlo.TRef sig ⟨S16384, .i32⟩) (.of main_call3_v7 : StableHlo.TRef sig ⟨S16384, .i32⟩) (.of main_call3_v8 : StableHlo.TRef sig ⟨S16384, .i32⟩) Host.remsi
  :: StableHlo.TRef.nullary (.of main_call3_c : StableHlo.TRef sig ⟨S_, .i32⟩) (constantI S_ 32 0#32)
  :: StableHlo.TRef.unary (.of main_call3_c : StableHlo.TRef sig ⟨S_, .i32⟩) (.of main_call3_v9 : StableHlo.TRef sig ⟨S16384, .i32⟩) (broadcastInDim S16384 ![] bcast_S_S16384)
  :: StableHlo.TRef.binary (.of main_call3_v8 : StableHlo.TRef sig ⟨S16384, .i32⟩) (.of main_call3_v9 : StableHlo.TRef sig ⟨S16384, .i32⟩) (.of main_call3_v10 : StableHlo.TRef sig ⟨S16384, .i1⟩) (cmpi .ne)
  :: StableHlo.TRef.binary (.of main_call3_v6 : StableHlo.TRef sig ⟨S16384, .i1⟩) (.of main_call3_v10 : StableHlo.TRef sig ⟨S16384, .i1⟩) (.of main_call3_v11 : StableHlo.TRef sig ⟨S16384, .i1⟩) andi
  :: StableHlo.TRef.nullary (.of main_call3_c_0 : StableHlo.TRef sig ⟨S_, .i32⟩) (constantI S_ 32 1#32)
  :: StableHlo.TRef.unary (.of main_call3_c_0 : StableHlo.TRef sig ⟨S_, .i32⟩) (.of main_call3_v12 : StableHlo.TRef sig ⟨S16384, .i32⟩) (broadcastInDim S16384 ![] bcast_S_S16384)
  :: StableHlo.TRef.binary (.of main_call3_v2 : StableHlo.TRef sig ⟨S16384, .i32⟩) (.of main_call3_v12 : StableHlo.TRef sig ⟨S16384, .i32⟩) (.of main_call3_v13 : StableHlo.TRef sig ⟨S16384, .i32⟩) subi
  :: StableHlo.TRef.ternary (.of main_call3_v11 : StableHlo.TRef sig ⟨S16384, .i1⟩) (.of main_call3_v13 : StableHlo.TRef sig ⟨S16384, .i32⟩) (.of main_call3_v2 : StableHlo.TRef sig ⟨S16384, .i32⟩) (.of main_v30 : StableHlo.TRef sig ⟨S16384, .i32⟩) select
  :: [] )

set_option maxHeartbeats 40000000 in
set_option maxRecDepth 8192 in
/-- The operations of %cst, %31 … %56, in order: from the float zero and its broadcast `main_v31` up to and
    including the float scatter-add that writes `main_v56`: thirty-three operations. -/
abbrev opsFill : List (HloOp τ sig (Elt F)) :=
  ( StableHlo.nullary main_cst (constant S_ .f32 0x00000000#32)
  :: StableHlo.unary main_cst main_v31 (broadcastInDim S8x2560x2048 ![] bcast_S_S8x2560x2048 : (⟨S_, .f32⟩ : BufTy).Contents (Elt F) → (⟨S8x2560x2048, .f32⟩ : BufTy).Contents (Elt F))
  :: StableHlo.nullary main_c_9 (constantI S_ 32 0#32)
  :: StableHlo.unary main_c_9 main_v32 (broadcastInDim S16384 ![] bcast_S_S16384 : (⟨S_, .i32⟩ : BufTy).Contents (Elt F) → (⟨S16384, .i32⟩ : BufTy).Contents (Elt F))
  :: StableHlo.binary main_v30 main_v32 main_v33 (cmpi .slt : (⟨S16384, .i32⟩ : BufTy).Contents (Elt F) → (⟨S16384, .i32⟩ : BufTy).Contents (Elt F) → (⟨S16384, .i1⟩ : BufTy).Contents (Elt F))
  :: StableHlo.nullary main_c_10 (constantI S_ 32 8192#32)
  :: StableHlo.unary main_c_10 main_v34 (broadcastInDim S16384 ![] bcast_S_S16384 : (⟨S_, .i32⟩ : BufTy).Contents (Elt F) → (⟨S16384, .i32⟩ : BufTy).Contents (Elt F))
  :: StableHlo.binary main_v30 main_v34 main_v35 (addi : (⟨S16384, .i32⟩ : BufTy).Contents (Elt F) → (⟨S16384, .i32⟩ : BufTy).Contents (Elt F) → (⟨S16384, .i32⟩ : BufTy).Contents (Elt F))
  :: StableHlo.ternary main_v33 main_v35 main_v30 main_v36 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v36 main_v37 (broadcastInDim S16384x1 ![0] bcast_S16384_S16384x1_0 : (⟨S16384, .i32⟩ : BufTy).Contents (Elt F) → (⟨S16384x1, .i32⟩ : BufTy).Contents (Elt F))
  :: StableHlo.binary main_arg0 main_v37 main_v38 ((fun x i => Host.gather gather_S8192x2048_S16384x1_S16384x2048_1_0_n_n_0_1_12048 x i) : (⟨S8192x2048, .f32⟩ : BufTy).Contents (Elt F) → (⟨S16384x1, .i32⟩ : BufTy).Contents (Elt F) → (⟨S16384x2048, .f32⟩ : BufTy).Contents (Elt F))
  :: StableHlo.unary main_v28 main_v39 (broadcastInDim S16384x1 ![0] bcast_S16384_S16384x1_0 : (⟨S16384, .i1⟩ : BufTy).Contents (Elt F) → (⟨S16384x1, .i1⟩ : BufTy).Contents (Elt F))
  :: StableHlo.unary main_v39 main_v40 (uitofp .f32 : (⟨S16384x1, .i1⟩ : BufTy).Contents (Elt F) → (⟨S16384x1, .f32⟩ : BufTy).Contents (Elt F))
  :: StableHlo.unary main_v40 main_v41 (broadcastInDim S16384x2048 ![0, 1] bcast_S16384x1_S16384x2048_0_1 : (⟨S16384x1, .f32⟩ : BufTy).Contents (Elt F) → (⟨S16384x2048, .f32⟩ : BufTy).Contents (Elt F))
  :: StableHlo.binary main_v38 main_v41 main_v42 (mulf : (⟨S16384x2048, .f32⟩ : BufTy).Contents (Elt F) → (⟨S16384x2048, .f32⟩ : BufTy).Contents (Elt F) → (⟨S16384x2048, .f32⟩ : BufTy).Contents (Elt F))
  :: StableHlo.nullary main_c_11 (constantI S_ 32 0#32)
  :: StableHlo.unary main_c_11 main_v43 (broadcastInDim S16384 ![] bcast_S_S16384 : (⟨S_, .i32⟩ : BufTy).Contents (Elt F) → (⟨S16384, .i32⟩ : BufTy).Contents (Elt F))
  :: StableHlo.binary main_v13 main_v43 main_v44 (cmpi .slt : (⟨S16384, .i32⟩ : BufTy).Contents (Elt F) → (⟨S16384, .i32⟩ : BufTy).Contents (Elt F) → (⟨S16384, .i1⟩ : BufTy).Contents (Elt F))
  :: StableHlo.nullary main_c_12 (constantI S_ 32 8#32)
  :: StableHlo.unary main_c_12 main_v45 (broadcastInDim S16384 ![] bcast_S_S16384 : (⟨S_, .i32⟩ : BufTy).Contents (Elt F) → (⟨S16384, .i32⟩ : BufTy).Contents (Elt F))
  :: StableHlo.binary main_v13 main_v45 main_v46 (addi : (⟨S16384, .i32⟩ : BufTy).Contents (Elt F) → (⟨S16384, .i32⟩ : BufTy).Contents (Elt F) → (⟨S16384, .i32⟩ : BufTy).Contents (Elt F))
  :: StableHlo.ternary main_v44 main_v46 main_v13 main_v47 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.nullary main_c_13 (constantI S_ 32 0#32)
  :: StableHlo.unary main_c_13 main_v48 (broadcastInDim S16384 ![] bcast_S_S16384 : (⟨S_, .i32⟩ : BufTy).Contents (Elt F) → (⟨S16384, .i32⟩ : BufTy).Contents (Elt F))
  :: StableHlo.binary main_v29 main_v48 main_v49 (cmpi .slt : (⟨S16384, .i32⟩ : BufTy).Contents (Elt F) → (⟨S16384, .i32⟩ : BufTy).Contents (Elt F) → (⟨S16384, .i1⟩ : BufTy).Contents (Elt F))
  :: StableHlo.nullary main_c_14 (constantI S_ 32 2560#32)
  :: StableHlo.unary main_c_14 main_v50 (broadcastInDim S16384 ![] bcast_S_S16384 : (⟨S_, .i32⟩ : BufTy).Contents (Elt F) → (⟨S16384, .i32⟩ : BufTy).Contents (Elt F))
  :: StableHlo.binary main_v29 main_v50 main_v51 (addi : (⟨S16384, .i32⟩ : BufTy).Contents (Elt F) → (⟨S16384, .i32⟩ : BufTy).Contents (Elt F) → (⟨S16384, .i32⟩ : BufTy).Contents (Elt F))
  :: StableHlo.ternary main_v49 main_v51 main_v29 main_v52 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v47 main_v53 (broadcastInDim S16384x1 ![0] bcast_S16384_S16384x1_0 : (⟨S16384, .i32⟩ : BufTy).Contents (Elt F) → (⟨S16384x1, .i32⟩ : BufTy).Contents (Elt F))
  :: StableHlo.unary main_v52 main_v54 (broadcastInDim S16384x1 ![0] bcast_S16384_S16384x1_0 : (⟨S16384, .i32⟩ : BufTy).Contents (Elt F) → (⟨S16384x1, .i32⟩ : BufTy).Contents (Elt F))
  :: StableHlo.binary main_v53 main_v54 main_v55 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F))
  :: StableHlo.ternary main_v31 main_v55 main_v42 main_v56 ((fun x i u => Host.scatterAdd scatter_S8x2560x2048_S16384x2_S16384x2048_1_01_01_1 x i u) : (⟨S8x2560x2048, .f32⟩ : BufTy).Contents (Elt F) → (⟨S16384x2, .i32⟩ : BufTy).Contents (Elt F) → (⟨S16384x2048, .f32⟩ : BufTy).Contents (Elt F) → (⟨S8x2560x2048, .f32⟩ : BufTy).Contents (Elt F))
  :: [] )

set_option maxHeartbeats 40000000 in
set_option maxRecDepth 8192 in
/-- Statement %57 (the contraction of `main_v56` with `main_arg3` into `main_v57`), then the call of @silu as its
    nine operations over `main_call4`'s buffers (negation, exponential, the constant one and its broadcast, the
    sum, the constant one and its broadcast again, the quotient, the product into `main_v58`), then %59, %60, %61. -/
abbrev opsMid : List (HloOp τ sig (Elt F)) :=
  ( StableHlo.binary main_v56 main_arg3 main_v57 ((fun l r => Host.dotGeneral dot_S8x2560x2048_S8x2048x2048_S8x2560x2048_2_1_1_2_0_0 none l r) : (⟨S8x2560x2048, .f32⟩ : BufTy).Contents (Elt F) → (⟨S8x2048x2048, .f32⟩ : BufTy).Contents (Elt F) → (⟨S8x2560x2048, .f32⟩ : BufTy).Contents (Elt F))
  :: StableHlo.TRef.unary (.of main_v57 : StableHlo.TRef sig ⟨S8x2560x2048, .f32⟩) (.of main_call4_v0 : StableHlo.TRef sig ⟨S8x2560x2048, .f32⟩) Host.negf
  :: StableHlo.TRef.unary (.of main_call4_v0 : StableHlo.TRef sig ⟨S8x2560x2048, .f32⟩) (.of main_call4_v1 : StableHlo.TRef sig ⟨S8x2560x2048, .f32⟩) Host.exp
  :: StableHlo.TRef.nullary (.of main_call4_cst : StableHlo.TRef sig ⟨S_, .f32⟩) (constant S_ .f32 0x3F800000#32)
  :: StableHlo.TRef.unary (.of main_call4_cst : StableHlo.TRef sig ⟨S_, .f32⟩) (.of main_call4_v2 : StableHlo.TRef sig ⟨S8x2560x2048, .f32⟩) (broadcastInDim S8x2560x2048 ![] bcast_S_S8x2560x2048)
  :: StableHlo.TRef.binary (.of main_call4_v2 : StableHlo.TRef sig ⟨S8x2560x2048, .f32⟩) (.of main_call4_v1 : StableHlo.TRef sig ⟨S8x2560x2048, .f32⟩) (.of main_call4_v3 : StableHlo.TRef sig ⟨S8x2560x2048, .f32⟩) addf
  :: StableHlo.TRef.nullary (.of main_call4_cst_0 : StableHlo.TRef sig ⟨S_, .f32⟩) (constant S_ .f32 0x3F800000#32)
  :: StableHlo.TRef.unary (.of main_call4_cst_0 : StableHlo.TRef sig ⟨S_, .f32⟩) (.of main_call4_v4 : StableHlo.TRef sig ⟨S8x2560x2048, .f32⟩) (broadcastInDim S8x2560x2048 ![] bcast_S_S8x2560x2048)
  :: StableHlo.TRef.binary (.of main_call4_v4 : StableHlo.TRef sig ⟨S8x2560x2048, .f32⟩) (.of main_call4_v3 : StableHlo.TRef sig ⟨S8x2560x2048, .f32⟩) (.of main_call4_v5 : StableHlo.TRef sig ⟨S8x2560x2048, .f32⟩) Host.divf
  :: StableHlo.TRef.binary (.of main_v57 : StableHlo.TRef sig ⟨S8x2560x2048, .f32⟩) (.of main_call4_v5 : StableHlo.TRef sig ⟨S8x2560x2048, .f32⟩) (.of main_v58 : StableHlo.TRef sig ⟨S8x2560x2048, .f32⟩) mulf
  :: StableHlo.binary main_v56 main_arg5 main_v59 ((fun l r => Host.dotGeneral dot_S8x2560x2048_S8x2048x2048_S8x2560x2048_2_1_1_2_0_0 none l r) : (⟨S8x2560x2048, .f32⟩ : BufTy).Contents (Elt F) → (⟨S8x2048x2048, .f32⟩ : BufTy).Contents (Elt F) → (⟨S8x2560x2048, .f32⟩ : BufTy).Contents (Elt F))
  :: StableHlo.binary main_v58 main_v59 main_v60 (mulf : (⟨S8x2560x2048, .f32⟩ : BufTy).Contents (Elt F) → (⟨S8x2560x2048, .f32⟩ : BufTy).Contents (Elt F) → (⟨S8x2560x2048, .f32⟩ : BufTy).Contents (Elt F))
  :: StableHlo.binary main_v60 main_arg4 main_v61 ((fun l r => Host.dotGeneral dot_S8x2560x2048_S8x2048x2048_S8x2560x2048_2_1_1_2_0_0 none l r) : (⟨S8x2560x2048, .f32⟩ : BufTy).Contents (Elt F) → (⟨S8x2048x2048, .f32⟩ : BufTy).Contents (Elt F) → (⟨S8x2560x2048, .f32⟩ : BufTy).Contents (Elt F))
  :: [] )

set_option maxHeartbeats 40000000 in
set_option maxRecDepth 8192 in
/-- The operations of %c_15 … %95, in order: everything after the contraction that writes `main_v61`, through the
    float scatter-add that writes the result `main_v95`. -/
abbrev opsTail : List (HloOp τ sig (Elt F)) :=
  ( StableHlo.nullary main_c_15 (constantI S_ 32 0#32)
  :: StableHlo.unary main_c_15 main_v62 (broadcastInDim S16384 ![] bcast_S_S16384 : (⟨S_, .i32⟩ : BufTy).Contents (Elt F) → (⟨S16384, .i32⟩ : BufTy).Contents (Elt F))
  :: StableHlo.binary main_v13 main_v62 main_v63 (cmpi .slt : (⟨S16384, .i32⟩ : BufTy).Contents (Elt F) → (⟨S16384, .i32⟩ : BufTy).Contents (Elt F) → (⟨S16384, .i1⟩ : BufTy).Contents (Elt F))
  :: StableHlo.nullary main_c_16 (constantI S_ 32 8#32)
  :: StableHlo.unary main_c_16 main_v64 (broadcastInDim S16384 ![] bcast_S_S16384 : (⟨S_, .i32⟩ : BufTy).Contents (Elt F) → (⟨S16384, .i32⟩ : BufTy).Contents (Elt F))
  :: StableHlo.binary main_v13 main_v64 main_v65 (addi : (⟨S16384, .i32⟩ : BufTy).Contents (Elt F) → (⟨S16384, .i32⟩ : BufTy).Contents (Elt F) → (⟨S16384, .i32⟩ : BufTy).Contents (Elt F))
  :: StableHlo.ternary main_v63 main_v65 main_v13 main_v66 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.nullary main_c_17 (constantI S_ 32 0#32)
  :: StableHlo.unary main_c_17 main_v67 (broadcastInDim S16384 ![] bcast_S_S16384 : (⟨S_, .i32⟩ : BufTy).Contents (Elt F) → (⟨S16384, .i32⟩ : BufTy).Contents (Elt F))
  :: StableHlo.binary main_v29 main_v67 main_v68 (cmpi .slt : (⟨S16384, .i32⟩ : BufTy).Contents (Elt F) → (⟨S16384, .i32⟩ : BufTy).Contents (Elt F) → (⟨S16384, .i1⟩ : BufTy).Contents (Elt F))
  :: StableHlo.nullary main_c_18 (constantI S_ 32 2560#32)
  :: StableHlo.unary main_c_18 main_v69 (broadcastInDim S16384 ![] bcast_S_S16384 : (⟨S_, .i32⟩ : BufTy).Contents (Elt F) → (⟨S16384, .i32⟩ : BufTy).Contents (Elt F))
  :: StableHlo.binary main_v29 main_v69 main_v70 (addi : (⟨S16384, .i32⟩ : BufTy).Contents (Elt F) → (⟨S16384, .i32⟩ : BufTy).Contents (Elt F) → (⟨S16384, .i32⟩ : BufTy).Contents (Elt F))
  :: StableHlo.ternary main_v68 main_v70 main_v29 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v66 main_v72 (broadcastInDim S16384x1 ![0] bcast_S16384_S16384x1_0 : (⟨S16384, .i32⟩ : BufTy).Contents (Elt F) → (⟨S16384x1, .i32⟩ : BufTy).Contents (Elt F))
  :: StableHlo.unary main_v71 main_v73 (broadcastInDim S16384x1 ![0] bcast_S16384_S16384x1_0 : (⟨S16384, .i32⟩ : BufTy).Contents (Elt F) → (⟨S16384x1, .i32⟩ : BufTy).Contents (Elt F))
  :: StableHlo.binary main_v72 main_v73 main_v74 ((fun a b => concatenate S16384x2 1 [⟨S16384x1, a⟩, ⟨S16384x1, b⟩] concatenates_S16384x1_S16384x1_S16384x2_d1) : (⟨S16384x1, .i32⟩ : BufTy).Contents (Elt F) → (⟨S16384x1, .i32⟩ : BufTy).Contents (Elt F) → (⟨S16384x2, .i32⟩ : BufTy).Contents (Elt F))
  :: StableHlo.binary main_v61 main_v74 main_v75 ((fun x i => Host.gather gather_S8x2560x2048_S16384x2_S16384x2048_1_01_n_n_01_1_112048 x i) : (⟨S8x2560x2048, .f32⟩ : BufTy).Contents (Elt F) → (⟨S16384x2, .i32⟩ : BufTy).Contents (Elt F) → (⟨S16384x2048, .f32⟩ : BufTy).Contents (Elt F))
  :: StableHlo.nullary main_c_19 (constantI S_ 32 0#32)
  :: StableHlo.unary main_c_19 main_v76 (broadcastInDim S16384 ![] bcast_S_S16384 : (⟨S_, .i32⟩ : BufTy).Contents (Elt F) → (⟨S16384, .i32⟩ : BufTy).Contents (Elt F))
  :: StableHlo.binary main_v6 main_v76 main_v77 (cmpi .slt : (⟨S16384, .i32⟩ : BufTy).Contents (Elt F) → (⟨S16384, .i32⟩ : BufTy).Contents (Elt F) → (⟨S16384, .i1⟩ : BufTy).Contents (Elt F))
  :: StableHlo.nullary main_c_20 (constantI S_ 32 16384#32)
  :: StableHlo.unary main_c_20 main_v78 (broadcastInDim S16384 ![] bcast_S_S16384 : (⟨S_, .i32⟩ : BufTy).Contents (Elt F) → (⟨S16384, .i32⟩ : BufTy).Contents (Elt F))
  :: StableHlo.binary main_v6 main_v78 main_v79 (addi : (⟨S16384, .i32⟩ : BufTy).Contents (Elt F) → (⟨S16384, .i32⟩ : BufTy).Contents (Elt F) → (⟨S16384, .i32⟩ : BufTy).Contents (Elt F))
  :: StableHlo.ternary main_v77 main_v79 main_v6 main_v80 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v80 main_v81 (broadcastInDim S16384x1 ![0] bcast_S16384_S16384x1_0 : (⟨S16384, .i32⟩ : BufTy).Contents (Elt F) → (⟨S16384x1, .i32⟩ : BufTy).Contents (Elt F))
  :: StableHlo.binary main_v1 main_v81 main_v82 ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F))
  :: StableHlo.unary main_v28 main_v83 (uitofp .f32 : (⟨S16384, .i1⟩ : BufTy).Contents (Elt F) → (⟨S16384, .f32⟩ : BufTy).Contents (Elt F))
  :: StableHlo.binary main_v82 main_v83 main_v84 (mulf : (⟨S16384, .f32⟩ : BufTy).Contents (Elt F) → (⟨S16384, .f32⟩ : BufTy).Contents (Elt F) → (⟨S16384, .f32⟩ : BufTy).Contents (Elt F))
  :: StableHlo.unary main_v84 main_v85 (broadcastInDim S16384x1 ![0] bcast_S16384_S16384x1_0 : (⟨S16384, .f32⟩ : BufTy).Contents (Elt F) → (⟨S16384x1, .f32⟩ : BufTy).Contents (Elt F))
  :: StableHlo.unary main_v85 main_v86 (broadcastInDim S16384x2048 ![0, 1] bcast_S16384x1_S16384x2048_0_1 : (⟨S16384x1, .f32⟩ : BufTy).Contents (Elt F) → (⟨S16384x2048, .f32⟩ : BufTy).Contents (Elt F))
  :: StableHlo.binary main_v75 main_v86 main_v87 (mulf : (⟨S16384x2048, .f32⟩ : BufTy).Contents (Elt F) → (⟨S16384x2048, .f32⟩ : BufTy).Contents (Elt F) → (⟨S16384x2048, .f32⟩ : BufTy).Contents (Elt F))
  :: StableHlo.nullary main_cst_21 (constant S_ .f32 0x00000000#32)
  :: StableHlo.unary main_cst_21 main_v88 (broadcastInDim S8192x2048 ![] bcast_S_S8192x2048 : (⟨S_, .f32⟩ : BufTy).Contents (Elt F) → (⟨S8192x2048, .f32⟩ : BufTy).Contents (Elt F))
  :: StableHlo.nullary main_c_22 (constantI S_ 32 0#32)
  :: StableHlo.unary main_c_22 main_v89 (broadcastInDim S16384 ![] bcast_S_S16384 : (⟨S_, .i32⟩ : BufTy).Contents (Elt F) → (⟨S16384, .i32⟩ : BufTy).Contents (Elt F))
  :: StableHlo.binary main_v30 main_v89 main_v90 (cmpi .slt : (⟨S16384, .i32⟩ : BufTy).Contents (Elt F) → (⟨S16384, .i32⟩ : BufTy).Contents (Elt F) → (⟨S16384, .i1⟩ : BufTy).Contents (Elt F))
  :: StableHlo.nullary main_c_23 (constantI S_ 32 8192#32)
  :: StableHlo.unary main_c_23 main_v91 (broadcastInDim S16384 ![] bcast_S_S16384 : (⟨S_, .i32⟩ : BufTy).Contents (Elt F) → (⟨S16384, .i32⟩ : BufTy).Contents (Elt F))
  :: StableHlo.binary main_v30 main_v91 main_v92 (addi : (⟨S16384, .i32⟩ : BufTy).Contents (Elt F) → (⟨S16384, .i32⟩ : BufTy).Contents (Elt F) → (⟨S16384, .i32⟩ : BufTy).Contents (Elt F))
  :: StableHlo.ternary main_v90 main_v92 main_v30 main_v93 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v93 main_v94 (broadcastInDim S16384x1 ![0] bcast_S16384_S16384x1_0 : (⟨S16384, .i32⟩ : BufTy).Contents (Elt F) → (⟨S16384x1, .i32⟩ : BufTy).Contents (Elt F))
  :: StableHlo.ternary main_v88 main_v94 main_v87 main_v95 ((fun x i u => Host.scatterAdd scatter_S8192x2048_S16384x1_S16384x2048_1_0_0_1 x i u) : (⟨S8192x2048, .f32⟩ : BufTy).Contents (Elt F) → (⟨S16384x1, .i32⟩ : BufTy).Contents (Elt F) → (⟨S16384x2048, .f32⟩ : BufTy).Contents (Elt F) → (⟨S8192x2048, .f32⟩ : BufTy).Contents (Elt F))
  :: [] )

/-- Folding over two lists in turn is folding over their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- @main is the straight line of the four lists one after the other: with each function's body in place of its
    call and each record's fields in place of its names, the three windows of @main in order and the line over the
    concatenated lists are the same chain of operation steps. -/
theorem main_eq (c : Dev nD) : main (F := F) c = seq (opsRoute ++ (opsFill ++ (opsMid ++ opsTail))) := by
  chain_rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

set_option maxRecDepth 8192 in
/-- Every operation of the first list touches TensorCore references only. -/
theorem opsRoute_sub : (opsRoute : List (HloOp τ sig (Elt F))).Forall fun op => op.bufs ⊆ tcRefs τ sig :=
  ⟨reshape_bufs_sub .., reshape_bufs_sub .., nullary_bufs_sub .., unary_bufs_sub .., nullary_bufs_sub .., unary_bufs_sub .., unary_bufs_sub .., ternary_bufs_sub ..,
    nullary_bufs_sub .., binary_bufs_sub .., binary_bufs_sub ..,
    nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..,
    nullary_bufs_sub .., unary_bufs_sub .., binary_bufs_sub ..,
    unary_bufs_sub .., binary_bufs_sub .., nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub ..,
    unary_bufs_sub .., unary_bufs_sub .., ternary_bufs_sub ..,
    nullary_bufs_sub ..,
    unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

set_option maxRecDepth 8192 in
/-- Every operation of the second list touches TensorCore references only. -/
theorem opsFill_sub : (opsFill : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- Every operation of the third list touches TensorCore references only. -/
theorem opsMid_sub : (opsMid : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub .., binary_bufs_sub ..,
    binary_bufs_sub .., binary_bufs_sub .., binary_bufs_sub ..⟩

set_option maxRecDepth 8192 in
/-- Every operation of the fourth list touches TensorCore references only. -/
theorem opsTail_sub : (opsTail : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub ..,
    unary_bufs_sub .., unary_bufs_sub .., binary_bufs_sub .., binary_bufs_sub ..,
    nullary_bufs_sub .., unary_bufs_sub .., binary_bufs_sub .., nullary_bufs_sub .., unary_bufs_sub .., binary_bufs_sub .., ternary_bufs_sub ..,
    unary_bufs_sub .., binary_bufs_sub .., unary_bufs_sub .., binary_bufs_sub .., unary_bufs_sub .., unary_bufs_sub .., binary_bufs_sub ..,
    nullary_bufs_sub .., unary_bufs_sub ..,
    nullary_bufs_sub .., unary_bufs_sub .., binary_bufs_sub .., nullary_bufs_sub .., unary_bufs_sub .., binary_bufs_sub .., ternary_bufs_sub ..,
    unary_bufs_sub .., ternary_bufs_sub ..⟩

/-- Every operation of the whole line touches TensorCore references only. -/
theorem ops_sub : (opsRoute ++ (opsFill ++ (opsMid ++ opsTail)) : List (HloOp τ sig (Elt F))).Forall fun op => op.bufs ⊆ tcRefs τ sig :=
  List.forall_append.2 ⟨opsRoute_sub, List.forall_append.2 ⟨opsFill_sub, List.forall_append.2 ⟨opsMid_sub, opsTail_sub⟩⟩⟩

set_option maxRecDepth 8192 in
/-- Every operation of the first list determines all it writes. -/
theorem opsRoute_fresh : (opsRoute : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- Every operation of the second list determines all it writes. -/
theorem opsFill_fresh : (opsFill : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl⟩

/-- Every operation of the third list determines all it writes. -/
theorem opsMid_fresh : (opsMid : List (HloOp τ sig (Elt F))).Forall fun op => op.fresh = ∅ :=
  ⟨rfl, rfl, rfl, rfl, rfl, rfl, rfl, rfl, rfl, rfl, rfl, rfl, rfl⟩

set_option maxRecDepth 8192 in
/-- Every operation of the fourth list determines all it writes. -/
theorem opsTail_fresh : (opsTail : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl,
    rfl, rfl, rfl, rfl, rfl, rfl, rfl, rfl, rfl, rfl, rfl⟩

/-- Every operation of the whole line determines all it writes. -/
theorem ops_fresh : ∀ op ∈ (opsRoute ++ (opsFill ++ (opsMid ++ opsTail)) : List (HloOp τ sig (Elt F))), op.fresh = ∅ :=
  List.forall_iff_forall_mem.1 (List.forall_append.2 ⟨opsRoute_fresh, List.forall_append.2 ⟨opsFill_fresh,
    List.forall_append.2 ⟨opsMid_fresh, opsTail_fresh⟩⟩⟩)

/-- On every device, for any float values, from any memory with zero counters: every weakly fair execution of
    @main on the TensorCores terminates, and every final state has each TensorCore buffer at the fold of the four
    lists, in order, over the contents the buffers were launched with. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsMid (after opsFill (after opsRoute (launchContents m c)))) (Proc.devRef .tc b) :=
  (θ_run defs _ _).mono (fun _ h c b => (h c b).trans (by rw [after_append, after_append, after_append]))
    (run_seq scopedRefs_eq scopedSems_eq defs main (fun _ => opsRoute ++ (opsFill ++ (opsMid ++ opsTail))) main_eq (fun _ => ops_sub) m ρ
      (fun _ => ops_fresh))

end Cert.ReferenceIdeal.RefRun

end
-- ==== Proof.LibBatchedProduct.lean ====
/-
  A batched matrix product of a host program read at one index, for arbitrary extents (no program imported).

  An `[a, b, k]` array against an `[a, k, c]` array — the leading axis a batch axis of both, the last axis of the first
  contracted with the middle axis of the second (jnp's `einsum('bqk,bkd->bqd')`, StableHLO's `dot_general` with batching
  dimensions [0] x [0] and contracting dimensions [2] x [1]) — is, at `(i, j, l)` and at the ideal values, the finite sum
  over `q` of `A (i, j, q) * B (i, q, l)`: the contraction's one-axis index set re-indexed by its coordinate.
-/
import Idealize.ShloMosaic.PureOps.Ideal.Laws
import Idealize.ShloMosaic.Lib.ValueIdx

noncomputable section

open scoped BigOperators

namespace Cert.LibBatchedProduct

open Idealize.ShloMosaic Idealize.ShloMosaic.ValueIdx

/-- An `[a, b, k]` array against an `[a, k, c]` array, the leading axis a batch axis, the last axis of the first
    contracted with the middle axis of the second, read at `(i, j, l)`: the sum over `q` of
    `A (i, j, q) * B (i, q, l)`. -/
theorem dotGeneral_abk_akc_apply {a b c k : ℕ} {φ₁ φ₂ : FTy}
    (w : DotDims.WF ⟨3, ![a, b, k]⟩ ⟨3, ![a, k, c]⟩ ⟨3, ![a, b, c]⟩ [2] [1] [1] [2] [0] [0])
    (prec : Option ContractPrecision) (A : FVec Ideal ⟨3, ![a, b, k]⟩ φ₁) (B : FVec Ideal ⟨3, ![a, k, c]⟩ φ₂)
    (i : Fin a) (j : Fin b) (l : Fin c) :
    Host.dotGeneral (⟨[2], [1], [1], [2], [0], [0], w⟩ : DotDims ⟨3, ![a, b, k]⟩ ⟨3, ![a, k, c]⟩ ⟨3, ![a, b, c]⟩) prec A B
        (ix3 i j l)
      = ∑ q : Fin k, A (ix3 i j q) * B (ix3 i q l) := by
  show FloatOps.dotGeneral _ prec _ A B (ix3 i j l) = _
  rw [Ideal.dotGeneral_apply,
    ← Equiv.sum_comp (contrEquiv1 (⟨[2], [1], [1], [2], [0], [0], w⟩ :
        DotDims ⟨3, ![a, b, k]⟩ ⟨3, ![a, k, c]⟩ ⟨3, ![a, b, c]⟩) k rfl rfl).symm]
  refine Finset.sum_congr rfl fun q _ => ?_
  have c2 := contrEquiv1_symm_val (⟨[2], [1], [1], [2], [0], [0], w⟩ :
      DotDims ⟨3, ![a, b, k]⟩ ⟨3, ![a, k, c]⟩ ⟨3, ![a, b, c]⟩) k rfl rfl q
  have l2 : (⟨[2], [1], [1], [2], [0], [0], w⟩ : DotDims ⟨3, ![a, b, k]⟩ ⟨3, ![a, k, c]⟩ ⟨3, ![a, b, c]⟩).lhsIdx (ix3 i j l)
      ((contrEquiv1 _ k rfl rfl).symm q) = ix3 i j q := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (⟨[2], [1], [1], [2], [0], [0], w⟩ : DotDims ⟨3, ![a, b, k]⟩ ⟨3, ![a, k, c]⟩ ⟨3, ![a, b, c]⟩).rhsIdx (ix3 i j l)
      ((contrEquiv1 _ k rfl rfl).symm q) = ix3 i q l := by
    funext ax; apply Fin.ext
    match ax with
    | ⟨0, _⟩ => simp [DotDims.rhsIdx]; rfl
    | ⟨1, _⟩ => simp [DotDims.rhsIdx]; exact c2
    | ⟨2, _⟩ => simp [DotDims.rhsIdx]; rfl
  rw [l2, r2]

end Cert.LibBatchedProduct

end
-- ==== Proof.RefExpert.lean ====
/-
  The reference's three batched products and its gate, as the expert network.

  The reference multiplies the rows by the first and the third weight stack (a batched product: the expert is the
  batch axis, the rows' last axis is contracted with the weights' middle axis), forms `p1 · (1 / (1 + e^(-p1)))` entry by
  entry, multiplies by the second product, and multiplies the result by the remaining weight stack. Entry by entry that
  is the expert network: a batched product at an entry is the sum over the contracted coordinate, and
  `1 / (1 + e^(-t))` is the logistic function on every extended real.
-/
import proofs.«126702_j1185410974369_1_alg».proof.Proof.Gen.ReferenceIdeal
import proofs.«126702_j1185410974369_1_alg».proof.Proof.LibBatchedProduct
import proofs.«126702_j1185410974369_1_alg».proof.Proof.ExpertSpec
import Idealize.ShloMosaic.Lib.IdealHost

noncomputable section

open scoped BigOperators

namespace Cert.ReferenceIdeal.RefExpert

open Cert.ReferenceIdeal Cert.ReferenceIdeal.Gen Idealize.ShloMosaic Idealize.ShloMosaic.ValueIdx Cert.MoeExpert

/-- The gate as the reference spells it, with the float pattern of one. -/
theorem gate_spelt (a b : EReal) :
    (a * Ideal.div (Ideal.ofBits .f32 0x3F800000#32) (Ideal.ofBits .f32 0x3F800000#32 + Ideal.exp (-a))) * b = gate a b := by
  rw [Ideal.ofBits_one_f32]
  rfl

/-- One batched product of the reference at an entry. -/
theorem product_apply (x : FVec Ideal S8x2560x2048 .f32) (w : FVec Ideal S8x2048x2048 .f32) (e : Fin 8) (r : Fin 2560) (h : Fin 2048) :
    Host.dotGeneral dot_S8x2560x2048_S8x2048x2048_S8x2560x2048_2_1_1_2_0_0 none x w (ix3 e r h) = proj x w e r h :=
  Cert.LibBatchedProduct.dotGeneral_abk_akc_apply (a := 8) (b := 2560) (c := 2048) (k := 2048)
    dot_S8x2560x2048_S8x2048x2048_S8x2560x2048_2_1_1_2_0_0_wf none x w e r h

/-- The reference's products and gate are the expert network. -/
theorem ref_expert (x : FVec Ideal S8x2560x2048 .f32) (w1 w3 w2 : FVec Ideal S8x2048x2048 .f32) :
    Host.dotGeneral dot_S8x2560x2048_S8x2048x2048_S8x2560x2048_2_1_1_2_0_0 none
      (mulf
        (mulf (Host.dotGeneral dot_S8x2560x2048_S8x2048x2048_S8x2560x2048_2_1_1_2_0_0 none x w1)
          (Host.divf (broadcastInDim S8x2560x2048 ![] bcast_S_S8x2560x2048 (constant (F := Ideal) S_ .f32 0x3F800000#32))
            (addf (broadcastInDim S8x2560x2048 ![] bcast_S_S8x2560x2048 (constant (F := Ideal) S_ .f32 0x3F800000#32))
              (Host.exp (Host.negf (Host.dotGeneral dot_S8x2560x2048_S8x2048x2048_S8x2560x2048_2_1_1_2_0_0 none x w1))))))
        (Host.dotGeneral dot_S8x2560x2048_S8x2048x2048_S8x2560x2048_2_1_1_2_0_0 none x w3))
      w2
      = expert x w1 w3 w2 := by
  funext i
  obtain ⟨e, r, j, rfl⟩ : ∃ (e : Fin 8) (r : Fin 2560) (j : Fin 2048), i = ix3 e r j := ⟨i 0, i 1, i 2, eq_ix3 i⟩
  rw [expert_ix3]
  unfold expertAt
  refine (Cert.LibBatchedProduct.dotGeneral_abk_akc_apply (a := 8) (b := 2560) (c := 2048) (k := 2048)
    dot_S8x2560x2048_S8x2048x2048_S8x2560x2048_2_1_1_2_0_0_wf none _ w2 e r j).trans ?_
  refine Finset.sum_congr rfl fun h _ => ?_
  refine congrArg₂ (· * ·) ?_ rfl
  exact (gate_spelt _ _).trans (congrArg₂ gate (product_apply x w1 e r h) (product_apply x w3 e r h))

end Cert.ReferenceIdeal.RefExpert

end
-- ==== Proof.RefKeeps.lean ====
/-
  The reference program's four lists of host operations: what each leaves alone, and what the third computes.

  The first list (the routing) writes none of the float arguments. The second writes none of the routing's results
  named below and none of the weight stacks. The third (three batched products and the gate between them) writes none
  of those results either, and what it leaves in its last buffer is the expert network of the rows it starts from and
  the three weight stacks. The fourth does not write the expert counts. No operation of the four writes an argument.
-/
import proofs.«126702_j1185410974369_1_alg».proof.Proof.RefRun
import proofs.«126702_j1185410974369_1_alg».proof.Proof.RefExpert
import Idealize.ShloMosaic.PureOps.Ideal

noncomputable section

namespace Cert.ReferenceIdeal.RefKeeps

open Cert.ReferenceIdeal Cert.ReferenceIdeal.Gen Cert.ReferenceIdeal.RefRun Idealize.ShloMosaic Idealize.ShloMosaic.TcCoe Idealize.SL.Sem Idealize.ShloMosaic.StableHlo

set_option maxRecDepth 8192 in
/-- The routing reads the integer assignments and the routing weights; it writes no float argument. -/
theorem route_keeps (M : Valuation τ sig (Elt Ideal)) :
    after (opsRoute (F := Ideal)) M (Proc.devRef .tc main_arg0) = M (Proc.devRef .tc main_arg0)
    ∧ after (opsRoute (F := Ideal)) M (Proc.devRef .tc main_arg3) = M (Proc.devRef .tc main_arg3)
    ∧ after (opsRoute (F := Ideal)) M (Proc.devRef .tc main_arg4) = M (Proc.devRef .tc main_arg4)
    ∧ after (opsRoute (F := Ideal)) M (Proc.devRef .tc main_arg5) = M (Proc.devRef .tc main_arg5) := by
  simp only [opsRoute]
  after_results_simp
  exact ⟨trivial, trivial, trivial, trivial⟩

set_option maxRecDepth 8192 in
/-- The second list writes none of these results of the routing, and none of the weight stacks. -/
theorem fill_keeps (P : Valuation τ sig (Elt Ideal)) :
    after (opsFill (F := Ideal)) P (Proc.devRef .tc main_v1) = P (Proc.devRef .tc main_v1)
    ∧ after (opsFill (F := Ideal)) P (Proc.devRef .tc main_v5) = P (Proc.devRef .tc main_v5)
    ∧ after (opsFill (F := Ideal)) P (Proc.devRef .tc main_v6) = P (Proc.devRef .tc main_v6)
    ∧ after (opsFill (F := Ideal)) P (Proc.devRef .tc main_v13) = P (Proc.devRef .tc main_v13)
    ∧ after (opsFill (F := Ideal)) P (Proc.devRef .tc main_v28) = P (Proc.devRef .tc main_v28)
    ∧ after (opsFill (F := Ideal)) P (Proc.devRef .tc main_v29) = P (Proc.devRef .tc main_v29)
    ∧ after (opsFill (F := Ideal)) P (Proc.devRef .tc main_v30) = P (Proc.devRef .tc main_v30)
    ∧ after (opsFill (F := Ideal)) P (Proc.devRef .tc main_arg3) = P (Proc.devRef .tc main_arg3)
    ∧ after (opsFill (F := Ideal)) P (Proc.devRef .tc main_arg4) = P (Proc.devRef .tc main_arg4)
    ∧ after (opsFill (F := Ideal)) P (Proc.devRef .tc main_arg5) = P (Proc.devRef .tc main_arg5) := by
  simp only [opsFill]
  after_results_simp
  exact ⟨trivial, trivial, trivial, trivial, trivial, trivial, trivial, trivial, trivial, trivial⟩

set_option maxRecDepth 8192 in
/-- The third list writes none of these results of the routing. -/
theorem mid_keeps (W : Valuation τ sig (Elt Ideal)) :
    after (opsMid (F := Ideal)) W (Proc.devRef .tc main_v1) = W (Proc.devRef .tc main_v1)
    ∧ after (opsMid (F := Ideal)) W (Proc.devRef .tc main_v5) = W (Proc.devRef .tc main_v5)
    ∧ after (opsMid (F := Ideal)) W (Proc.devRef .tc main_v6) = W (Proc.devRef .tc main_v6)
    ∧ after (opsMid (F := Ideal)) W (Proc.devRef .tc main_v13) = W (Proc.devRef .tc main_v13)
    ∧ after (opsMid (F := Ideal)) W (Proc.devRef .tc main_v28) = W (Proc.devRef .tc main_v28)
    ∧ after (opsMid (F := Ideal)) W (Proc.devRef .tc main_v29) = W (Proc.devRef .tc main_v29)
    ∧ after (opsMid (F := Ideal)) W (Proc.devRef .tc main_v30) = W (Proc.devRef .tc main_v30) := by
  simp only [opsMid]
  after_results_simp
  exact ⟨trivial, trivial, trivial, trivial, trivial, trivial, trivial⟩

set_option maxRecDepth 8192 in
/-- What the third list leaves in its last buffer: the product, with the second weight stack, of the gated products
    of the rows with the first and the third — the expert network of the rows and the three stacks. -/
theorem mid_value (W : Valuation τ sig (Elt Ideal)) :
    (after (opsMid (F := Ideal)) W (Proc.devRef .tc main_v61) : S8x2560x2048.Idx → EReal)
      = Cert.MoeExpert.expert (W (Proc.devRef .tc main_v56)) (W (Proc.devRef .tc main_arg3))
          (W (Proc.devRef .tc main_arg5)) (W (Proc.devRef .tc main_arg4)) := by
  simp only [opsMid]
  after_results_simp
  exact Cert.ReferenceIdeal.RefExpert.ref_expert _ _ _ _

set_option maxRecDepth 8192 in
/-- The fourth list does not write the expert counts. -/
theorem tail_keeps (W : Valuation τ sig (Elt Ideal)) :
    after (opsTail (F := Ideal)) W (Proc.devRef .tc main_v5) = W (Proc.devRef .tc main_v5) := by
  simp only [opsTail]
  after_results_simp

set_option maxRecDepth 8192 in
/-- The routing writes neither the routing weights nor the integer assignments. -/
theorem route_keeps_inputs (M : Valuation τ sig (Elt Ideal)) :
    after (opsRoute (F := Ideal)) M (Proc.devRef .tc main_arg1) = M (Proc.devRef .tc main_arg1)
    ∧ after (opsRoute (F := Ideal)) M (Proc.devRef .tc main_arg2) = M (Proc.devRef .tc main_arg2) := by
  simp only [opsRoute]
  after_results_simp
  exact ⟨trivial, trivial⟩

set_option maxRecDepth 8192 in
/-- The second list writes none of the first three arguments. -/
theorem fill_keeps_inputs (P : Valuation τ sig (Elt Ideal)) :
    after (opsFill (F := Ideal)) P (Proc.devRef .tc main_arg0) = P (Proc.devRef .tc main_arg0)
    ∧ after (opsFill (F := Ideal)) P (Proc.devRef .tc main_arg1) = P (Proc.devRef .tc main_arg1)
    ∧ after (opsFill (F := Ideal)) P (Proc.devRef .tc main_arg2) = P (Proc.devRef .tc main_arg2) := by
  simp only [opsFill]
  after_results_simp
  exact ⟨trivial, trivial, trivial⟩

set_option maxRecDepth 8192 in
/-- The third list writes no argument. -/
theorem mid_keeps_args (W : Valuation τ sig (Elt Ideal)) :
    after (opsMid (F := Ideal)) W (Proc.devRef .tc main_arg0) = W (Proc.devRef .tc main_arg0)
    ∧ after (opsMid (F := Ideal)) W (Proc.devRef .tc main_arg1) = W (Proc.devRef .tc main_arg1)
    ∧ after (opsMid (F := Ideal)) W (Proc.devRef .tc main_arg2) = W (Proc.devRef .tc main_arg2)
    ∧ after (opsMid (F := Ideal)) W (Proc.devRef .tc main_arg3) = W (Proc.devRef .tc main_arg3)
    ∧ after (opsMid (F := Ideal)) W (Proc.devRef .tc main_arg4) = W (Proc.devRef .tc main_arg4)
    ∧ after (opsMid (F := Ideal)) W (Proc.devRef .tc main_arg5) = W (Proc.devRef .tc main_arg5) := by
  simp only [opsMid]
  after_results_simp
  exact ⟨trivial, trivial, trivial, trivial, trivial, trivial⟩

set_option maxHeartbeats 1000000 in
set_option maxRecDepth 8192 in
/-- The fourth list writes no argument. -/
theorem tail_keeps_args (W : Valuation τ sig (Elt Ideal)) :
    after (opsTail (F := Ideal)) W (Proc.devRef .tc main_arg0) = W (Proc.devRef .tc main_arg0)
    ∧ after (opsTail (F := Ideal)) W (Proc.devRef .tc main_arg1) = W (Proc.devRef .tc main_arg1)
    ∧ after (opsTail (F := Ideal)) W (Proc.devRef .tc main_arg2) = W (Proc.devRef .tc main_arg2)
    ∧ after (opsTail (F := Ideal)) W (Proc.devRef .tc main_arg3) = W (Proc.devRef .tc main_arg3)
    ∧ after (opsTail (F := Ideal)) W (Proc.devRef .tc main_arg4) = W (Proc.devRef .tc main_arg4)
    ∧ after (opsTail (F := Ideal)) W (Proc.devRef .tc main_arg5) = W (Proc.devRef .tc main_arg5) := by
  simp only [opsTail]
  after_results_simp
  exact ⟨trivial, trivial, trivial, trivial, trivial, trivial⟩

/-- No operation of the four lists writes an argument: each argument ends at what it was launched with. -/
theorem args_kept (M : Valuation τ sig (Elt Ideal)) :
    after (opsTail (F := Ideal)) (after opsMid (after opsFill (after opsRoute M))) (Proc.devRef .tc main_arg0) = M (Proc.devRef .tc main_arg0)
    ∧ after (opsTail (F := Ideal)) (after opsMid (after opsFill (after opsRoute M))) (Proc.devRef .tc main_arg1) = M (Proc.devRef .tc main_arg1)
    ∧ after (opsTail (F := Ideal)) (after opsMid (after opsFill (after opsRoute M))) (Proc.devRef .tc main_arg2) = M (Proc.devRef .tc main_arg2)
    ∧ after (opsTail (F := Ideal)) (after opsMid (after opsFill (after opsRoute M))) (Proc.devRef .tc main_arg3) = M (Proc.devRef .tc main_arg3)
    ∧ after (opsTail (F := Ideal)) (after opsMid (after opsFill (after opsRoute M))) (Proc.devRef .tc main_arg4) = M (Proc.devRef .tc main_arg4)
    ∧ after (opsTail (F := Ideal)) (after opsMid (after opsFill (after opsRoute M))) (Proc.devRef .tc main_arg5) = M (Proc.devRef .tc main_arg5) := by
  obtain ⟨r0, r3, r4, r5⟩ := route_keeps M
  obtain ⟨r1, r2⟩ := route_keeps_inputs M
  obtain ⟨-, -, -, -, -, -, -, f3, f4, f5⟩ := fill_keeps (after opsRoute M)
  obtain ⟨f0, f1, f2⟩ := fill_keeps_inputs (after opsRoute M)
  obtain ⟨m0, m1, m2, m3, m4, m5⟩ := mid_keeps_args (after opsFill (after opsRoute M))
  obtain ⟨t0, t1, t2, t3, t4, t5⟩ := tail_keeps_args (after opsMid (after opsFill (after opsRoute M)))
  exact ⟨t0.trans (m0.trans (f0.trans r0)), t1.trans (m1.trans (f1.trans r1)), t2.trans (m2.trans (f2.trans r2)),
    t3.trans (m3.trans (f3.trans r3)), t4.trans (m4.trans (f4.trans r4)), t5.trans (m5.trans (f5.trans r5))⟩

end Cert.ReferenceIdeal.RefKeeps

end
-- ==== Proof.LibPairConcat.lean ====
/-
  A concatenation of two pieces as a function of the two pieces.

  `concatenate t a xs h` takes its pieces as a list of (shape, contents) pairs, and the type of its side condition `h`
  mentions that list; a rewriting pass therefore cannot change a piece's contents in place. `cat2` is the same
  concatenation for exactly two pieces, with the side condition stated over the two shapes only, so that each piece is an
  ordinary argument. `cat2_fold` turns the one into the other; `after_results_pairs` is the library's one-pass reading
  of a fold of host operations with that lemma added, for host programs whose two-operand concatenations feed later
  operations. No program imported.
-/
import Idealize.ShloMosaic.Lib.StableHlo.Run

namespace Cert.LibPairConcat

open Idealize.ShloMosaic

/-- Two pieces side by side along axis `a` of the result shape `t`. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece concatenation is `cat2` of its pieces. -/
theorem cat2_fold {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.LibPairConcat

open Idealize.ShloMosaic.StableHlo in
/-- The fold of a literal list of host operations read at a result buffer, in one rewriting pass, two-piece
    concatenations folded so that the pass reaches their pieces. -/
macro "after_results_pairs" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibPairConcat.cat2_fold]))
-- ==== Proof.AgreeRoute.lean ====
/-
  The two programs route alike.

  Both programs compute, from the integer expert assignments and the routing weights alone, the flat weights, the
  experts' counts, the sorted order of the assignments, and for every sorted slot its expert, whether it fits the
  capacity, its offset in the expert's bin, and its source token — by the same operations in the same order. So from
  contents that agree on those two arguments the two routings leave equal values in the corresponding buffers.
-/
import proofs.«126702_j1185410974369_1_alg».proof.Proof.KernelKeeps
import proofs.«126702_j1185410974369_1_alg».proof.Proof.RefRun
import proofs.«126702_j1185410974369_1_alg».proof.Proof.LibPairConcat

noncomputable section

namespace Cert.Agree

open Idealize.ShloMosaic Idealize.ShloMosaic.TcCoe Idealize.SL.Sem Idealize.ShloMosaic.StableHlo

set_option maxRecDepth 16384 in
set_option maxHeartbeats 4000000 in
/-- Equal routing from equal assignments and routing weights. -/
theorem routing_agrees
    (MK : Valuation Cert.KernelIdeal.τ Cert.KernelIdeal.sig (Elt Ideal))
    (MR : Valuation Cert.ReferenceIdeal.τ Cert.ReferenceIdeal.sig (Elt Ideal))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    after (Cert.ReferenceIdeal.RefRun.opsRoute (F := Ideal)) MR (Proc.devRef .tc Cert.ReferenceIdeal.main_v1)
        = after Cert.KernelIdeal.KernelKeeps.route MK (Proc.devRef .tc Cert.KernelIdeal.main_v1)
    ∧ after (Cert.ReferenceIdeal.RefRun.opsRoute (F := Ideal)) MR (Proc.devRef .tc Cert.ReferenceIdeal.main_v5)
        = after Cert.KernelIdeal.KernelKeeps.route MK (Proc.devRef .tc Cert.KernelIdeal.main_v5)
    ∧ after (Cert.ReferenceIdeal.RefRun.opsRoute (F := Ideal)) MR (Proc.devRef .tc Cert.ReferenceIdeal.main_v6)
        = after Cert.KernelIdeal.KernelKeeps.route MK (Proc.devRef .tc Cert.KernelIdeal.main_v6)
    ∧ after (Cert.ReferenceIdeal.RefRun.opsRoute (F := Ideal)) MR (Proc.devRef .tc Cert.ReferenceIdeal.main_v13)
        = after Cert.KernelIdeal.KernelKeeps.route MK (Proc.devRef .tc Cert.KernelIdeal.main_v13)
    ∧ after (Cert.ReferenceIdeal.RefRun.opsRoute (F := Ideal)) MR (Proc.devRef .tc Cert.ReferenceIdeal.main_v28)
        = after Cert.KernelIdeal.KernelKeeps.route MK (Proc.devRef .tc Cert.KernelIdeal.main_v28)
    ∧ after (Cert.ReferenceIdeal.RefRun.opsRoute (F := Ideal)) MR (Proc.devRef .tc Cert.ReferenceIdeal.main_v29)
        = after Cert.KernelIdeal.KernelKeeps.route MK (Proc.devRef .tc Cert.KernelIdeal.main_v29)
    ∧ after (Cert.ReferenceIdeal.RefRun.opsRoute (F := Ideal)) MR (Proc.devRef .tc Cert.ReferenceIdeal.main_v30)
        = after Cert.KernelIdeal.KernelKeeps.route MK (Proc.devRef .tc Cert.KernelIdeal.main_v30) := by
  simp only [Cert.KernelIdeal.KernelKeeps.route, Cert.KernelIdeal.Gen.hostOps0, Cert.KernelIdeal.Gen.hostOps0_1,
    Cert.KernelIdeal.Gen.hostOps0_2, Cert.KernelIdeal.Gen.hostOps0_3, Cert.KernelIdeal.Gen.hostOps0_4,
    Cert.KernelIdeal.Gen.hostOps0_5, Cert.KernelIdeal.Gen.hostOps0_6, Cert.KernelIdeal.Gen.hostOps0_7,
    Cert.ReferenceIdeal.RefRun.opsRoute,
    List.flatten_cons, List.flatten_nil, List.append_nil, List.cons_append, List.nil_append]
  after_results_pairs
  rw [h1, h2]
  exact ⟨rfl, rfl, rfl, rfl, rfl, rfl, rfl⟩

end Cert.Agree

end
-- ==== Proof.AgreeFill.lean ====
/-
  The two programs fill the experts' bins alike.

  After the routing both programs gather each sorted slot's token row, zero the rows that do not fit the capacity, and
  add the rows into the bins at (expert, offset) — the same operations in the same order on the routing's results and
  the token array. The kernel program then rounds the bins for its region, which at the ideal values changes nothing.
  So from contents that agree on the token array and on the routing's four results that are read, the bins agree.
-/
import proofs.«126702_j1185410974369_1_alg».proof.Proof.KernelKeeps
import proofs.«126702_j1185410974369_1_alg».proof.Proof.RefRun
import proofs.«126702_j1185410974369_1_alg».proof.Proof.LibPairConcat

noncomputable section

namespace Cert.Agree

open Idealize.ShloMosaic Idealize.ShloMosaic.TcCoe Idealize.SL.Sem Idealize.ShloMosaic.StableHlo

set_option maxRecDepth 16384 in
set_option maxHeartbeats 4000000 in
/-- Equal bins from equal tokens and equal routing. -/
theorem fill_agrees
    (PK : Valuation Cert.KernelIdeal.τ Cert.KernelIdeal.sig (Elt Ideal))
    (PR : Valuation Cert.ReferenceIdeal.τ Cert.ReferenceIdeal.sig (Elt Ideal))
    (h0 : PR (Proc.devRef .tc Cert.ReferenceIdeal.main_arg0) = PK (Proc.devRef .tc Cert.KernelIdeal.main_arg0))
    (h13 : PR (Proc.devRef .tc Cert.ReferenceIdeal.main_v13) = PK (Proc.devRef .tc Cert.KernelIdeal.main_v13))
    (h28 : PR (Proc.devRef .tc Cert.ReferenceIdeal.main_v28) = PK (Proc.devRef .tc Cert.KernelIdeal.main_v28))
    (h29 : PR (Proc.devRef .tc Cert.ReferenceIdeal.main_v29) = PK (Proc.devRef .tc Cert.KernelIdeal.main_v29))
    (h30 : PR (Proc.devRef .tc Cert.ReferenceIdeal.main_v30) = PK (Proc.devRef .tc Cert.KernelIdeal.main_v30)) :
    (after (Cert.ReferenceIdeal.RefRun.opsFill (F := Ideal)) PR (Proc.devRef .tc Cert.ReferenceIdeal.main_v56)
        : Cert.ReferenceIdeal.S8x2560x2048.Idx → EReal)
      = after Cert.KernelIdeal.Gen.hostOps0_8 PK (Proc.devRef .tc Cert.KernelIdeal.main_v57) := by
  simp only [Cert.KernelIdeal.Gen.hostOps0_8, Cert.ReferenceIdeal.RefRun.opsFill]
  after_results_pairs
  rw [h0, h13, h28, h29, h30]
  rfl

end Cert.Agree

end
-- ==== Proof.AgreeTail.lean ====
/-
  The two programs combine the experts' answers alike.

  After the experts both programs gather, for every sorted slot, the answer row at (expert, offset), scale it by the
  slot's routing weight (zero when the slot did not fit the capacity), and add the rows onto the slots' source tokens —
  the same operations in the same order on the experts' answers and the routing's results. So from contents that agree
  on those, the final token arrays agree.
-/
import proofs.«126702_j1185410974369_1_alg».proof.Proof.KernelKeeps
import proofs.«126702_j1185410974369_1_alg».proof.Proof.RefRun
import proofs.«126702_j1185410974369_1_alg».proof.Proof.LibPairConcat

noncomputable section

namespace Cert.Agree

open Idealize.ShloMosaic Idealize.ShloMosaic.TcCoe Idealize.SL.Sem Idealize.ShloMosaic.StableHlo

set_option maxRecDepth 16384 in
set_option maxHeartbeats 4000000 in
/-- Equal results from equal answers and equal routing. -/
theorem tail_agrees
    (WK : Valuation Cert.KernelIdeal.τ Cert.KernelIdeal.sig (Elt Ideal))
    (WR : Valuation Cert.ReferenceIdeal.τ Cert.ReferenceIdeal.sig (Elt Ideal))
    (h61 : WR (Proc.devRef .tc Cert.ReferenceIdeal.main_v61) = WK (Proc.devRef .tc Cert.KernelIdeal.main_v61))
    (h1 : WR (Proc.devRef .tc Cert.ReferenceIdeal.main_v1) = WK (Proc.devRef .tc Cert.KernelIdeal.main_v1))
    (h6 : WR (Proc.devRef .tc Cert.ReferenceIdeal.main_v6) = WK (Proc.devRef .tc Cert.KernelIdeal.main_v6))
    (h13 : WR (Proc.devRef .tc Cert.ReferenceIdeal.main_v13) = WK (Proc.devRef .tc Cert.KernelIdeal.main_v13))
    (h28 : WR (Proc.devRef .tc Cert.ReferenceIdeal.main_v28) = WK (Proc.devRef .tc Cert.KernelIdeal.main_v28))
    (h29 : WR (Proc.devRef .tc Cert.ReferenceIdeal.main_v29) = WK (Proc.devRef .tc Cert.KernelIdeal.main_v29))
    (h30 : WR (Proc.devRef .tc Cert.ReferenceIdeal.main_v30) = WK (Proc.devRef .tc Cert.KernelIdeal.main_v30)) :
    after (Cert.ReferenceIdeal.RefRun.opsTail (F := Ideal)) WR (Proc.devRef .tc Cert.ReferenceIdeal.main_v95)
      = after Cert.KernelIdeal.Gen.hostOps1 WK (Proc.devRef .tc Cert.KernelIdeal.main_v95) := by
  simp only [Cert.KernelIdeal.Gen.hostOps1, Cert.ReferenceIdeal.RefRun.opsTail]
  after_results_pairs
  rw [h61, h1, h6, h13, h28, h29, h30]
  rfl

end Cert.Agree

end
-- ==== Proof.Bridge.lean ====
/-
  The two programs' results agree.

  Stage by stage, from memories that agree on the six arguments: the routings agree (they read the integer assignments
  and the routing weights only); so the experts' bins agree, and the weight stacks the kernel's region stages are the
  arguments themselves; so the experts' answers agree — the kernel's region leaves the expert network of what it stages,
  the reference's three batched products and gate are that same function —; so the combined token arrays agree. The
  experts' counts are a routing result that nothing later writes.
-/
import proofs.«126702_j1185410974369_1_alg».proof.Proof.KernelHost
import proofs.«126702_j1185410974369_1_alg».proof.Proof.RefKeeps
import proofs.«126702_j1185410974369_1_alg».proof.Proof.AgreeRoute
import proofs.«126702_j1185410974369_1_alg».proof.Proof.AgreeFill
import proofs.«126702_j1185410974369_1_alg».proof.Proof.AgreeTail

noncomputable section

namespace Cert.Bridge

open Idealize.ShloMosaic Idealize.ShloMosaic.TcCoe Idealize.SL.Sem Idealize.ShloMosaic.StableHlo Cert.Agree

/-! ## Up to the region's entry -/

/-- From contents agreeing on the six arguments: after the routing and the filling of the bins, the reference's bins
    are what the kernel's region stages as rows, its weight arguments what the region stages as weights, and the
    routing's results agree. -/
theorem entry_agrees
    (MK : Valuation Cert.KernelIdeal.τ Cert.KernelIdeal.sig (Elt Ideal))
    (MR : Valuation Cert.ReferenceIdeal.τ Cert.ReferenceIdeal.sig (Elt Ideal))
    (a0 : MR (Proc.devRef .tc Cert.ReferenceIdeal.main_arg0) = MK (Proc.devRef .tc Cert.KernelIdeal.main_arg0))
    (a1 : MR (Proc.devRef .tc Cert.ReferenceIdeal.main_arg1) = MK (Proc.devRef .tc Cert.KernelIdeal.main_arg1))
    (a2 : MR (Proc.devRef .tc Cert.ReferenceIdeal.main_arg2) = MK (Proc.devRef .tc Cert.KernelIdeal.main_arg2))
    (a3 : MR (Proc.devRef .tc Cert.ReferenceIdeal.main_arg3) = MK (Proc.devRef .tc Cert.KernelIdeal.main_arg3))
    (a4 : MR (Proc.devRef .tc Cert.ReferenceIdeal.main_arg4) = MK (Proc.devRef .tc Cert.KernelIdeal.main_arg4))
    (a5 : MR (Proc.devRef .tc Cert.ReferenceIdeal.main_arg5) = MK (Proc.devRef .tc Cert.KernelIdeal.main_arg5)) :
    let QK := after Cert.KernelIdeal.Gen.hostOps0_8 (after Cert.KernelIdeal.KernelKeeps.route MK)
    let QR := after (Cert.ReferenceIdeal.RefRun.opsFill (F := Ideal)) (after Cert.ReferenceIdeal.RefRun.opsRoute MR)
    (QR (Proc.devRef .tc Cert.ReferenceIdeal.main_v56) : Cert.ReferenceIdeal.S8x2560x2048.Idx → EReal)
        = QK (Proc.devRef .tc Cert.KernelIdeal.main_v57)
    ∧ (QR (Proc.devRef .tc Cert.ReferenceIdeal.main_arg3) : Cert.ReferenceIdeal.S8x2048x2048.Idx → EReal)
        = QK (Proc.devRef .tc Cert.KernelIdeal.main_v58)
    ∧ (QR (Proc.devRef .tc Cert.ReferenceIdeal.main_arg5) : Cert.ReferenceIdeal.S8x2048x2048.Idx → EReal)
        = QK (Proc.devRef .tc Cert.KernelIdeal.main_v59)
    ∧ (QR (Proc.devRef .tc Cert.ReferenceIdeal.main_arg4) : Cert.ReferenceIdeal.S8x2048x2048.Idx → EReal)
        = QK (Proc.devRef .tc Cert.KernelIdeal.main_v60)
    ∧ QR (Proc.devRef .tc Cert.ReferenceIdeal.main_v1) = QK (Proc.devRef .tc Cert.KernelIdeal.main_v1)
    ∧ QR (Proc.devRef .tc Cert.ReferenceIdeal.main_v5) = QK (Proc.devRef .tc Cert.KernelIdeal.main_v5)
    ∧ QR (Proc.devRef .tc Cert.ReferenceIdeal.main_v6) = QK (Proc.devRef .tc Cert.KernelIdeal.main_v6)
    ∧ QR (Proc.devRef .tc Cert.ReferenceIdeal.main_v13) = QK (Proc.devRef .tc Cert.KernelIdeal.main_v13)
    ∧ QR (Proc.devRef .tc Cert.ReferenceIdeal.main_v28) = QK (Proc.devRef .tc Cert.KernelIdeal.main_v28)
    ∧ QR (Proc.devRef .tc Cert.ReferenceIdeal.main_v29) = QK (Proc.devRef .tc Cert.KernelIdeal.main_v29)
    ∧ QR (Proc.devRef .tc Cert.ReferenceIdeal.main_v30) = QK (Proc.devRef .tc Cert.KernelIdeal.main_v30) := by
  intro QK QR
  obtain ⟨r1, r5, r6, r13, r28, r29, r30⟩ := routing_agrees MK MR a1 a2
  obtain ⟨k0, k3, k4, k5⟩ := Cert.KernelIdeal.KernelKeeps.route_keeps MK
  obtain ⟨f0, f3, f4, f5⟩ := Cert.ReferenceIdeal.RefKeeps.route_keeps MR
  obtain ⟨kf1, kf5, kf6, kf13, kf28, kf29, kf30⟩ :=
    Cert.KernelIdeal.KernelKeeps.fill_keeps (after Cert.KernelIdeal.KernelKeeps.route MK)
  obtain ⟨rf1, rf5, rf6, rf13, rf28, rf29, rf30, rfa3, rfa4, rfa5⟩ :=
    Cert.ReferenceIdeal.RefKeeps.fill_keeps (after Cert.ReferenceIdeal.RefRun.opsRoute MR)
  obtain ⟨w3, w5, w4⟩ := Cert.KernelIdeal.KernelKeeps.weights_staged (after Cert.KernelIdeal.KernelKeeps.route MK)
  refine ⟨fill_agrees _ _ (f0.trans (a0.trans k0.symm)) r13 r28 r29 r30, ?_, ?_, ?_,
    rf1.trans (r1.trans kf1.symm), rf5.trans (r5.trans kf5.symm), rf6.trans (r6.trans kf6.symm),
    rf13.trans (r13.trans kf13.symm), rf28.trans (r28.trans kf28.symm), rf29.trans (r29.trans kf29.symm),
    rf30.trans (r30.trans kf30.symm)⟩
  · exact rfa3.trans (f3.trans (a3.trans (k3.symm.trans w3.symm)))
  · exact rfa5.trans (f5.trans (a5.trans (k5.symm.trans w5.symm)))
  · exact rfa4.trans (f4.trans (a4.trans (k4.symm.trans w4.symm)))

/-! ## The results -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Core `c`'s contents in the kernel program at the region's entry, as the last stretch applied to the routing. -/
abbrev QK (c : Dev Cert.KernelIdeal.nD) : Valuation Cert.KernelIdeal.τ Cert.KernelIdeal.sig (Elt Ideal) :=
  after Cert.KernelIdeal.Gen.hostOps0_8 (after Cert.KernelIdeal.KernelKeeps.route (fun b => m (c, b)))

/-- Core `c`'s contents in the reference after its routing and the filling of the bins. -/
abbrev QR (c : Dev Cert.ReferenceIdeal.nD) : Valuation Cert.ReferenceIdeal.τ Cert.ReferenceIdeal.sig (Elt Ideal) :=
  after (Cert.ReferenceIdeal.RefRun.opsFill (F := Ideal)) (after Cert.ReferenceIdeal.RefRun.opsRoute (launchContents m' c))

/-- From memories agreeing on the six arguments, the reference's two results are the kernel program's. -/
theorem results_agree (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.RefRun.opsTail (F := Ideal)) (after Cert.ReferenceIdeal.RefRun.opsMid (QR m' c))
        (Proc.devRef .tc Cert.ReferenceIdeal.main_v95)
      = Pipeline.afterTail₀ Cert.KernelIdeal.cfgs (Cert.KernelIdeal.Gen.dats m) 0 (Cert.KernelIdeal.Gen.V0 m)
          [Cert.KernelIdeal.Gen.hostOps1] c Cert.KernelIdeal.main_v95
    ∧ after (Cert.ReferenceIdeal.RefRun.opsTail (F := Ideal)) (after Cert.ReferenceIdeal.RefRun.opsMid (QR m' c))
        (Proc.devRef .tc Cert.ReferenceIdeal.main_v5)
      = Pipeline.afterTail₀ Cert.KernelIdeal.cfgs (Cert.KernelIdeal.Gen.dats m) 0 (Cert.KernelIdeal.Gen.V0 m)
          [Cert.KernelIdeal.Gen.hostOps1] c Cert.KernelIdeal.main_v5 := by
  obtain ⟨a0, a1, a2, a3, a4, a5⟩ := h
  obtain ⟨e56, e3, e5, e4, e1, ec, e6, e13, e28, e29, e30⟩ :=
    entry_agrees (fun b => m (c, b)) (launchContents m' c) a0 a1 a2 a3 a4 a5
  -- the kernel program's contents at the region's entry
  have hV : Cert.KernelIdeal.Gen.V0 m c = QK m c := Cert.KernelIdeal.KernelHost.entry_eq m c
  -- the experts' answers
  have hK61 : Cert.KernelIdeal.KernelHost.resumed m c (Proc.devRef .tc Cert.KernelIdeal.main_v61)
      = Cert.MoeExpert.expert (QK m c (Proc.devRef .tc Cert.KernelIdeal.main_v57))
          (QK m c (Proc.devRef .tc Cert.KernelIdeal.main_v58)) (QK m c (Proc.devRef .tc Cert.KernelIdeal.main_v59))
          (QK m c (Proc.devRef .tc Cert.KernelIdeal.main_v60)) := by
    rw [Cert.KernelIdeal.KernelHost.resumed_out]
    show Cert.MoeExpert.expert (Cert.KernelIdeal.Gen.V0 m c (Proc.devRef .tc Cert.KernelIdeal.main_v57))
        (Cert.KernelIdeal.Gen.V0 m c (Proc.devRef .tc Cert.KernelIdeal.main_v58))
        (Cert.KernelIdeal.Gen.V0 m c (Proc.devRef .tc Cert.KernelIdeal.main_v59))
        (Cert.KernelIdeal.Gen.V0 m c (Proc.devRef .tc Cert.KernelIdeal.main_v60)) = _
    rw [hV]
  have hR61 := Cert.ReferenceIdeal.RefKeeps.mid_value (QR m' c)
  have h61 : after (Cert.ReferenceIdeal.RefRun.opsMid (F := Ideal)) (QR m' c) (Proc.devRef .tc Cert.ReferenceIdeal.main_v61)
      = Cert.KernelIdeal.KernelHost.resumed m c (Proc.devRef .tc Cert.KernelIdeal.main_v61) := by
    refine hR61.trans (Eq.trans ?_ hK61.symm)
    unfold QR QK
    rw [e56, e3, e5, e4]
  -- the routing's results, as each program's last stretch finds them
  obtain ⟨m1, m5, m6, m13, m28, m29, m30⟩ := Cert.ReferenceIdeal.RefKeeps.mid_keeps (QR m' c)
  have k1 := (Cert.KernelIdeal.KernelHost.resumed_rest m c Cert.KernelIdeal.main_v1 (by exact (by decide : ∀ w, Pipeline.arrRef Cert.KernelIdeal.spec0 w ≠ Cert.KernelIdeal.main_v1))).trans (congrFun hV _)
  have k5 := (Cert.KernelIdeal.KernelHost.resumed_rest m c Cert.KernelIdeal.main_v5 (by exact (by decide : ∀ w, Pipeline.arrRef Cert.KernelIdeal.spec0 w ≠ Cert.KernelIdeal.main_v5))).trans (congrFun hV _)
  have k6 := (Cert.KernelIdeal.KernelHost.resumed_rest m c Cert.KernelIdeal.main_v6 (by exact (by decide : ∀ w, Pipeline.arrRef Cert.KernelIdeal.spec0 w ≠ Cert.KernelIdeal.main_v6))).trans (congrFun hV _)
  have k13 := (Cert.KernelIdeal.KernelHost.resumed_rest m c Cert.KernelIdeal.main_v13 (by exact (by decide : ∀ w, Pipeline.arrRef Cert.KernelIdeal.spec0 w ≠ Cert.KernelIdeal.main_v13))).trans (congrFun hV _)
  have k28 := (Cert.KernelIdeal.KernelHost.resumed_rest m c Cert.KernelIdeal.main_v28 (by exact (by decide : ∀ w, Pipeline.arrRef Cert.KernelIdeal.spec0 w ≠ Cert.KernelIdeal.main_v28))).trans (congrFun hV _)
  have k29 := (Cert.KernelIdeal.KernelHost.resumed_rest m c Cert.KernelIdeal.main_v29 (by exact (by decide : ∀ w, Pipeline.arrRef Cert.KernelIdeal.spec0 w ≠ Cert.KernelIdeal.main_v29))).trans (congrFun hV _)
  have k30 := (Cert.KernelIdeal.KernelHost.resumed_rest m c Cert.KernelIdeal.main_v30 (by exact (by decide : ∀ w, Pipeline.arrRef Cert.KernelIdeal.spec0 w ≠ Cert.KernelIdeal.main_v30))).trans (congrFun hV _)
  refine ⟨?_, ?_⟩
  · -- the token array
    refine (tail_agrees (Cert.KernelIdeal.KernelHost.resumed m c) (after Cert.ReferenceIdeal.RefRun.opsMid (QR m' c)) h61
      (m1.trans (e1.trans k1.symm)) (m6.trans (e6.trans k6.symm)) (m13.trans (e13.trans k13.symm))
      (m28.trans (e28.trans k28.symm)) (m29.trans (e29.trans k29.symm)) (m30.trans (e30.trans k30.symm))).trans ?_
    exact (Cert.KernelIdeal.KernelHost.tail_eq m c Cert.KernelIdeal.main_v95).symm
  · -- the experts' counts
    refine (Cert.ReferenceIdeal.RefKeeps.tail_keeps _).trans (m5.trans (ec.trans ?_))
    refine Eq.symm ((Cert.KernelIdeal.KernelHost.tail_eq m c Cert.KernelIdeal.main_v5).trans ?_)
    exact (Cert.KernelIdeal.KernelKeeps.tail_keeps _).trans k5

end Cert.Bridge

end
-- ==== Proof.lean ====
/-
  A routed mixture of experts: 8192 tokens of 2048 features, each sent to two of eight experts with a routing weight;
  every expert takes at most 2560 rows. Both programs sort the 16384 assignments by expert, count them, place each
  token's row in its expert's bin at its offset (rows past the capacity are dropped), run every bin through the expert
  network — two projections, the gate `(p1 · σ(p1)) · p3`, a third projection —, and add the answers, scaled by the
  routing weights, back onto the tokens. They return the combined token array and the experts' counts.

  The kernel program runs the expert network in a tiled region (a grid point per expert and per tile of 256 rows) on
  operands rounded to a narrower float format; the reference runs it as three batched products. Read on the extended
  reals, a change of float format is the identity and a product into a zero accumulator is the plain sum of products, so
  the two compute the same sums in the same order and agree for every input: no finiteness is used. Everything around the
  expert network is the same sequence of host operations in both programs.

  The frames of the two kernel programs are the generated ones. The reference's frame and run come from its host
  operations listed in order (RefRun, RefKeeps). The value claim: the region's output array is the expert network of what
  it stages (BlockValue, KernelValue, KernelHost); the reference's middle is the same function (RefExpert, RefKeeps);
  the host operations before and after agree stage by stage (AgreeRoute, AgreeFill, AgreeTail); Bridge chains them.
-/
import proofs.«126702_j1185410974369_1_alg».proof.Defs
import proofs.«126702_j1185410974369_1_alg».proof.Proof.Gen.Kernel
import proofs.«126702_j1185410974369_1_alg».proof.Proof.Gen.Kernel.Skeleton
import proofs.«126702_j1185410974369_1_alg».proof.Proof.Gen.Kernel.Launch
import proofs.«126702_j1185410974369_1_alg».proof.Proof.Gen.Kernel.Points
import proofs.«126702_j1185410974369_1_alg».proof.Proof.Gen.Kernel.Frame
import proofs.«126702_j1185410974369_1_alg».proof.Proof.Gen.KernelIdeal
import proofs.«126702_j1185410974369_1_alg».proof.Proof.Gen.KernelIdeal.Skeleton
import proofs.«126702_j1185410974369_1_alg».proof.Proof.Gen.KernelIdeal.Launch
import proofs.«126702_j1185410974369_1_alg».proof.Proof.Gen.KernelIdeal.Points
import proofs.«126702_j1185410974369_1_alg».proof.Proof.Gen.KernelIdeal.Frame
import proofs.«126702_j1185410974369_1_alg».proof.Proof.Gen.ReferenceIdeal
import proofs.«126702_j1185410974369_1_alg».proof.Proof.Gen.Pre_finite_inputs
import proofs.«126702_j1185410974369_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a straight line of host operations, none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefKeeps.args_kept (launchContents m c)).1,
     (h c Cert.ReferenceIdeal.main_arg1).trans (Cert.ReferenceIdeal.RefKeeps.args_kept (launchContents m c)).2.1,
     (h c Cert.ReferenceIdeal.main_arg2).trans (Cert.ReferenceIdeal.RefKeeps.args_kept (launchContents m c)).2.2.1,
     (h c Cert.ReferenceIdeal.main_arg3).trans (Cert.ReferenceIdeal.RefKeeps.args_kept (launchContents m c)).2.2.2.1,
     (h c Cert.ReferenceIdeal.main_arg4).trans (Cert.ReferenceIdeal.RefKeeps.args_kept (launchContents m c)).2.2.2.2.1,
     (h c Cert.ReferenceIdeal.main_arg5).trans (Cert.ReferenceIdeal.RefKeeps.args_kept (launchContents m c)).2.2.2.2.2⟩)
    (Cert.ReferenceIdeal.RefRun.run_main (F := Ideal) m ρ)

/-- The kernel program read on the extended reals is the printed program's own text: nothing was rewritten. -/
theorem preserves : Cert.preserves_Kernel_KernelIdeal := trivial

/-- Both programs, run from memories agreeing on the arguments, end with the same token array and the same counts. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v95,
    fun c => Pipeline.afterTail₀ Cert.KernelIdeal.cfgs (Cert.KernelIdeal.Gen.dats m) 0 (Cert.KernelIdeal.Gen.V0 m)
      [Cert.KernelIdeal.Gen.hostOps1] c Cert.KernelIdeal.main_v5, ?_, ?_⟩
  · exact (θ_run Cert.KernelIdeal.defs _ _).mono (fun _ h c =>
      ⟨(h c).2 Cert.KernelIdeal.main_v95 (Pipeline.mem_restRefs_of Cert.KernelIdeal.main_v95 (by decide) (by decide)),
       (h c).2 Cert.KernelIdeal.main_v5 (Pipeline.mem_restRefs_of Cert.KernelIdeal.main_v5 (by decide) (by decide)),
       ((h c).2 Cert.KernelIdeal.main_arg0 (Pipeline.mem_restRefs_of Cert.KernelIdeal.main_arg0 (by decide) (by decide))).trans
         (Cert.KernelIdeal.Gen.W_main_arg0 m (Cert.KernelIdeal.Gen.dats m) c),
       ((h c).2 Cert.KernelIdeal.main_arg1 (Pipeline.mem_restRefs_of Cert.KernelIdeal.main_arg1 (by decide) (by decide))).trans
         (Cert.KernelIdeal.Gen.W_main_arg1 m (Cert.KernelIdeal.Gen.dats m) c),
       ((h c).2 Cert.KernelIdeal.main_arg2 (Pipeline.mem_restRefs_of Cert.KernelIdeal.main_arg2 (by decide) (by decide))).trans
         (Cert.KernelIdeal.Gen.W_main_arg2 m (Cert.KernelIdeal.Gen.dats m) c),
       ((h c).2 Cert.KernelIdeal.main_arg3 (Pipeline.mem_restRefs_of Cert.KernelIdeal.main_arg3 (by decide) (by decide))).trans
         (Cert.KernelIdeal.Gen.W_main_arg3 m (Cert.KernelIdeal.Gen.dats m) c),
       ((h c).2 Cert.KernelIdeal.main_arg4 (Pipeline.mem_restRefs_of Cert.KernelIdeal.main_arg4 (by decide) (by decide))).trans
         (Cert.KernelIdeal.Gen.W_main_arg4 m (Cert.KernelIdeal.Gen.dats m) c),
       ((h c).2 Cert.KernelIdeal.main_arg5 (Pipeline.mem_restRefs_of Cert.KernelIdeal.main_arg5 (by decide) (by decide))).trans
         (Cert.KernelIdeal.Gen.W_main_arg5 m (Cert.KernelIdeal.Gen.dats m) c)⟩)
      (Cert.KernelIdeal.Gen.run_main m ρ)
  · exact (θ_run Cert.ReferenceIdeal.defs _ _).mono (fun _ h c =>
      ⟨(h c Cert.ReferenceIdeal.main_v95).trans (Cert.Bridge.results_agree m m' c (hagree c)).1,
       (h c Cert.ReferenceIdeal.main_v5).trans (Cert.Bridge.results_agree m m' c (hagree c)).2,
       (h c Cert.ReferenceIdeal.main_arg0).trans (Cert.ReferenceIdeal.RefKeeps.args_kept (launchContents m' c)).1,
       (h c Cert.ReferenceIdeal.main_arg1).trans (Cert.ReferenceIdeal.RefKeeps.args_kept (launchContents m' c)).2.1,
       (h c Cert.ReferenceIdeal.main_arg2).trans (Cert.ReferenceIdeal.RefKeeps.args_kept (launchContents m' c)).2.2.1,
       (h c Cert.ReferenceIdeal.main_arg3).trans (Cert.ReferenceIdeal.RefKeeps.args_kept (launchContents m' c)).2.2.2.1,
       (h c Cert.ReferenceIdeal.main_arg4).trans (Cert.ReferenceIdeal.RefKeeps.args_kept (launchContents m' c)).2.2.2.2.1,
       (h c Cert.ReferenceIdeal.main_arg5).trans (Cert.ReferenceIdeal.RefKeeps.args_kept (launchContents m' c)).2.2.2.2.2⟩)
      (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
